-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S50000x2048 : S_.BroadcastsInDim S50000x2048 (![] : Fin 0 → Fin S50000x2048.rank)
  reducesTo_S50000x2048_S_d0_1 : S50000x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S512x2048 .f32) (main_arg1 : FVec F S50000x2048 .f32) (main_arg2 : FVec F S1024x2048 .f32) (main_arg3 : FVec F S1024 .f32) (main_arg4 : FVec F S1024x2048 .f32) (main_arg5 : FVec F S1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S50000x2048 .f32 := Host.absf main_arg1
  let main_cst_0 : FVec F S_ .f32 := constant S_ .f32 0x7F800000#32
  let main_v5 : FVec F S50000x2048 .f32 := broadcastInDim S50000x2048 ![] bcast_S_S50000x2048 main_cst_0
  let main_v6 : IVec S50000x2048 1 := cmpf .olt main_v4 main_v5
  let main_c_1 : IVec S_ 1 := constantI S_ 1 1#1
  let main_v7 : IVec S_ 1 := (fun x v => Host.reduce IntOp.andi x v reducesTo_S50000x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S1x1024 : Shape := ⟨2, ![1, 1024]⟩
abbrev S512x1 : Shape := ⟨2, ![512, 1]⟩
abbrev S2048x1024 : Shape := ⟨2, ![2048, 1024]⟩
abbrev S512x1024 : Shape := ⟨2, ![512, 1024]⟩
abbrev S512 : Shape := ⟨1, ![512]⟩
abbrev S512x50000 : Shape := ⟨2, ![512, 50000]⟩
abbrev S2048x2048 : Shape := ⟨2, ![2048, 2048]⟩

abbrev nBuf : Space → Nat
  | .hbm => 11
  | .vmem => 13
  | .smem => 0
  | _ => 0

abbrev bufTy : (tb : Table) → Fin (tcTables nBuf tb) → BufTy
  | .hbm, ⟨0, _⟩ => ⟨S512x2048, .f32⟩
  | .hbm, ⟨1, _⟩ => ⟨S50000x2048, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S512x2048, .bf16⟩
  | .hbm, ⟨9, _⟩ => ⟨S512x1, .f32⟩
  | .hbm, ⟨10, _⟩ => ⟨S512x50000, .f32⟩
  | .local _ .vmem, ⟨0, _⟩ => ⟨S512x2048, .f32⟩
  | .local _ .vmem, ⟨1, _⟩ => ⟨S1024x2048, .f32⟩
  | .local _ .vmem, ⟨2, _⟩ => ⟨S1x1024, .f32⟩
  | .local _ .vmem, ⟨3, _⟩ => ⟨S1024x2048, .f32⟩
  | .local _ .vmem, ⟨4, _⟩ => ⟨S1x1024, .f32⟩
  | .local _ .vmem, ⟨5, _⟩ => ⟨S512x2048, .bf16⟩
  | .local _ .vmem, ⟨6, _⟩ => ⟨S512x1, .f32⟩
  | .local _ .vmem, ⟨7, _⟩ => ⟨S512x2048, .bf16⟩
  | .local _ .vmem, ⟨8, _⟩ => ⟨S2048x2048, .f32⟩
  | .local _ .vmem, ⟨9, _⟩ => ⟨S2048x2048, .f32⟩
  | .local _ .vmem, ⟨10, _⟩ => ⟨S512x1, .f32⟩
  | .local _ .vmem, ⟨11, _⟩ => ⟨S512x2048, .f32⟩
  | .local _ .vmem, ⟨12, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x2048_S512x2048_0_0 : (Rect.unit (s := S512x2048) ![0, 0] S512x2048.size inb_S512x2048_S512x2048_0_0).PackedRows (EltTy.packing .bf16)
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  transposes_S2048x2048_p1_0_S2048x2048 : S2048x2048.Transposes [1, 0] S2048x2048
  shapeCasts_S512x1_S512x1 : S512x1.ShapeCasts S512x1
  broadcasts_S512x1_S512x2048 : S512x1.Broadcasts S512x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .f32 = 32 ∨ (Rect.block (s := S1024x2048) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x2048.size a
  hwx1_0 : ∀ i : grid1.Coords, EltTy.bits .bf16 = 32 ∨ (Rect.block (s := S512x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x2048.size a < S50000x2048.size a
  hwx1_1 : ∀ i : grid1.Coords, EltTy.bits .f32 = 32 ∨ (Rect.unit (s := S50000x2048) (fun a => cc1_transform_1 i a * S2048x2048.size a) (fun a => (Pipeline.Clip.of (cc1_transform_1 i a) (S2048x2048.size a) (S50000x2048.size a)).extent (S2048x2048.size a)) fun a => Pipeline.Clip.inb (Pipeline.Clip.ok_of (hstart1_1 i a))).WholeWords (EltTy.packing .f32)
  hwxs1_1 : ∀ i : grid1.Coords, EltTy.bits .f32 = 32 ∨ (Rect.unit (s := S2048x2048) (fun _ => 0) (fun a => (Pipeline.Clip.of (cc1_transform_1 i a) (S2048x2048.size a) (S50000x2048.size a)).extent (S2048x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x2048.size a < S512x50000.size a
  hwx1_3 : ∀ i : grid1.Coords, EltTy.bits .f32 = 32 ∨ (Rect.unit (s := S512x50000) (fun a => cc1_transform_3 i a * S512x2048.size a) (fun a => (Pipeline.Clip.of (cc1_transform_3 i a) (S512x2048.size a) (S512x50000.size a)).extent (S512x2048.size a)) fun a => Pipeline.Clip.inb (Pipeline.Clip.ok_of (hstart1_3 i a))).WholeWords (EltTy.packing .f32)
  hwxs1_3 : ∀ i : grid1.Coords, EltTy.bits .f32 = 32 ∨ (Rect.unit (s := S512x2048) (fun _ => 0) (fun a => (Pipeline.Clip.of (cc1_transform_3 i a) (S512x2048.size a) (S512x50000.size a)).extent (S512x2048.size a)) fun a => (Nat.zero_add _).trans_le (Pipeline.Clip.extent_le (Pipeline.Clip.ok_of (hstart1_3 i a)))).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x2048.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S512x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S512x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg1) S2048x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v2_1) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v3) S512x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x2048 : Shape := ⟨2, ![512, 2048]⟩
abbrev S50000x2048 : Shape := ⟨2, ![50000, 2048]⟩
abbrev S1024x2048 : Shape := ⟨2, ![1024, 2048]⟩
abbrev S1024 : Shape := ⟨1, ![1024]⟩
abbrev S2048x1024 : Shape := ⟨2, ![2048, 1024]⟩
abbrev S512x1024 : Shape := ⟨2, ![512, 1024]⟩
abbrev S1x1024 : Shape := ⟨2, ![1, 1024]⟩
abbrev S50000x1024 : Shape := ⟨2, ![50000, 1024]⟩
abbrev S512x50000 : Shape := ⟨2, ![512, 50000]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S50000x2048, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S2048x1024, .f32⟩
  | .hbm, ⟨7, _⟩ => ⟨S512x1024, .f32⟩
  | .hbm, ⟨8, _⟩ => ⟨S1x1024, .f32⟩
  | .hbm, ⟨9, _⟩ => ⟨S512x1024, .f32⟩
  | .hbm, ⟨10, _⟩ => ⟨S512x1024, .f32⟩
  | .hbm, ⟨11, _⟩ => ⟨S2048x1024, .f32⟩
  | .hbm, ⟨12, _⟩ => ⟨S50000x1024, .f32⟩
  | .hbm, ⟨13, _⟩ => ⟨S1x1024, .f32⟩
  | .hbm, ⟨14, _⟩ => ⟨S50000x1024, .f32⟩
  | .hbm, ⟨15, _⟩ => ⟨S50000x1024, .f32⟩
  | .hbm, ⟨16, _⟩ => ⟨S512x50000, .f32⟩
  | .hbm, ⟨17, _⟩ => ⟨S_, .f32⟩
  | .hbm, ⟨18, _⟩ => ⟨S512x50000, .f32⟩
  | .hbm, ⟨19, _⟩ => ⟨S512x50000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S1x1024_S50000x1024_0_1 : S1x1024.BroadcastsInDim S50000x1024 (![0, 1] : Fin 2 → Fin S50000x1024.rank)
  bcast_S_S512x50000 : S_.BroadcastsInDim S512x50000 (![] : Fin 0 → Fin S512x50000.rank)
  dot_S512x2048_S2048x1024_S512x1024_1_0_0_1_n_n_wf : DotDims.WF S512x2048 S2048x1024 S512x1024 [1] [0] [0] [1] [] []
  dot_S50000x2048_S2048x1024_S50000x1024_1_0_0_1_n_n_wf : DotDims.WF S50000x2048 S2048x1024 S50000x1024 [1] [0] [0] [1] [] []
  dot_S512x1024_S50000x1024_S512x50000_1_1_0_0_n_n_wf : DotDims.WF S512x1024 S50000x1024 S512x50000 [1] [1] [0] [0] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S50000x2048_S2048x1024_S50000x1024_1_0_0_1_n_n : DotDims S50000x2048 S2048x1024 S50000x1024 where
  lhsContracting := [1]
  rhsContracting := [0]
  lhsNonContracting := [0]
  rhsNonContracting := [1]
  lhsBatch := []
  rhsBatch := []
  wf := dot_S50000x2048_S2048x1024_S50000x1024_1_0_0_1_n_n_wf
def dot_S512x1024_S50000x1024_S512x50000_1_1_0_0_n_n : DotDims S512x1024 S50000x1024 S512x50000 where
  lhsContracting := [1]
  rhsContracting := [1]
  lhsNonContracting := [0]
  rhsNonContracting := [0]
  lhsBatch := []
  rhsBatch := []
  wf := dot_S512x1024_S50000x1024_S512x50000_1_1_0_0_n_n_wf

class Facts : Prop extends Facts₀ where

variable [Facts]
-- ==== Proof.KernelFrameR0.lean ====
import proofs.«147248_j70643622085021_2_alg».proof.Proof.Gen.Kernel.Launch
import proofs.«147248_j70643622085021_2_alg».proof.Proof.Gen.Kernel.Skeleton
import proofs.«147248_j70643622085021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The first kernel region (the encoder), at the contents `V` it is entered from

One grid point; every window's block is its whole array, fetched at that point; the two results are written
back at it. The body loads its five operands whole, stores two values computed from them, and changes no
operand. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An operand's staging buffer holds its block whenever the body runs, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA : Rect S512x2048 := Rect.unit (s := S512x2048) ![0, 0] S512x2048.size inb_S512x2048_S512x2048_0_0
abbrev rB : Rect S1024x2048 := Rect.unit (s := S1024x2048) ![0, 0] S1024x2048.size inb_S1024x2048_S1024x2048_0_0
abbrev rC : Rect S1x1024 := Rect.unit (s := S1x1024) ![0, 0] S1x1024.size inb_S1x1024_S1x1024_0_0
abbrev rD : Rect S512x1 := Rect.unit (s := S512x1) ![0, 0] S512x1.size inb_S512x1_S512x1_0_0

/-- What the body leaves in the first result's buffer (the projected queries), from the operands' blocks: one
    whole-buffer store. -/
def out0_5 (x0 : Vec F S512x2048 .f32) (x1 : Vec F S1024x2048 .f32) (x2 : Vec F S1x1024 .f32) (x3 : Vec F S1024x2048 .f32) : Vec F S512x2048 .bf16 :=
  View.canon [⟨rA, k0_pay2 (View.ld x0 rA) (View.ld x1 rB) (View.ld x2 rC) (View.ld x3 rB)⟩]

/-- What it leaves in the second result's buffer (the offsets): one whole-buffer store. -/
def out0_6 (x0 : Vec F S512x2048 .f32) (x1 : Vec F S1024x2048 .f32) (x2 : Vec F S1x1024 .f32) (x4 : Vec F S1x1024 .f32) : Vec F S512x1 .f32 :=
  View.canon [⟨rD, k0_pay3 (View.ld x0 rA) (View.ld x1 rB) (View.ld x2 rC) (View.ld x4 rC)⟩]

/-- A whole-buffer store covers the buffer. -/
theorem cover0_5 (p0 : Vec F S512x2048 .bf16) (y : S512x2048.Idx) :
    ∃ pc ∈ ([⟨rA, p0⟩] : List (View.Piece (Elt F) S512x2048 .bf16)), y ∈ pc.1.set :=
  View.cover_of_tiled [⟨rA, p0⟩] S512x2048.size (by rfl) y

theorem cover0_6 (p0 : Vec F S512x1 .f32) (y : S512x1.Idx) :
    ∃ pc ∈ ([⟨rD, p0⟩] : List (View.Piece (Elt F) S512x1 .f32)), y ∈ pc.1.set :=
  View.cover_of_tiled [⟨rD, p0⟩] S512x1.size (by rfl) y

set_option maxHeartbeats 1000000 in
/-- The body on whole staging buffers — the operands' at contents `x0 … x4`, the results' at anything — runs to the
    continuation holding the operands' as they were and each result's at its stored value. -/
theorem sound_kernel0 (c : Dev nD) (E : Set ℕ) (i : grid0.Coords)
    (arg1 : Memref sig .tc .vmem S512x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S1024x2048 .f32) (harg4 : arg4.IsWhole)
    (arg5 : Memref sig .tc .vmem S1x1024 .f32) (harg5 : arg5.IsWhole) (arg6 : Memref sig .tc .vmem S512x2048 .bf16) (harg6 : arg6.IsWhole)
    (arg7 : Memref sig .tc .vmem S512x1 .f32) (harg7 : arg7.IsWhole)
    (x0 : Vec F S512x2048 .f32) (x1 : Vec F S1024x2048 .f32) (x2 : Vec F S1x1024 .f32) (x3 : Vec F S1024x2048 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3) ∗ owns (c : Thread nD τ) arg7 fullShare (out0_6 x0 x1 x2 x4)) -∗ K ⟨⟩))
      ⊢ wp frame (wpE (defs₀ (F := F)) Variants.none c none) E (cc0__encode_kernel i arg1 harg1 arg2 harg2 arg3 harg3 arg4 harg4 arg5 harg5 arg6 harg6 arg7 harg7) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The proof data -/

/-- The encoder's proof data on core `c`: the arrays as the region finds them; after the body each operand's buffer at
    its block and each result's at its stored value; between points only the scoped buffers no window stages and the
    generator register; nothing owed; every array held outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]
theorem after0_6 (c : Dev nD) (t : Fin cfg0.N) :
    (dat0 V c).after 6 t = out0_6 (iblk0 V c 0 t) (iblk0 V c 1 t) (iblk0 V c 2 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the exact proof data, at the one point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelFrameR1.lean ====
import proofs.«147248_j70643622085021_2_alg».proof.Proof.Gen.Kernel.Launch
import proofs.«147248_j70643622085021_2_alg».proof.Proof.Gen.Kernel.Skeleton
import proofs.«147248_j70643622085021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The second kernel region (the retrieval), at the contents `V` it is entered from

Twenty-five grid points, one per block of 2048 templates. The projected queries and the offsets (windows 0 and 2)
are fetched at the first point and read at every point; the templates (window 1) are fetched and the logits
(window 3) written back at every point, and the last block of both overhangs its array: its fetch fills only the
rows inside the array and leaves the rest of the staging buffer at contents nothing names, from which the body
computes what it stores. So the proof data RELATES what the body finds in a buffer to what it leaves there: an operand's
buffer is left as found; of the result's nothing is said. -/

section Region1

variable (V : (c : Dev nD) → (b : Ref sig .tc) → Buf (Elt F) ((c : Thread nD τ).loc b))

/-- The retrieval's proof data on core `c`: the arrays as the region finds them; the body leaves every operand's
    buffer as it found it and the result's at contents not stated; between points only the scoped buffers no window
    stages and the generator register; nothing owed; every array held outright. -/
def rdat1 (c : Dev nD) : RDat τ (Elt F) Unit ℕ (UR sig nD τ) ℕ cfg1 c where
  A w := V c (Pipeline.arrRef spec1 w)
  after w _ Y X := w ≠ 3 → X = Y
  Φ _ := Pipeline.ΦA spec1 c
  q _ := fullShare
  owed _ := 0

theorem A_eq1 (c : Dev nD) (w : Fin cfg1.W) : (rdat1 V c).A w = V c (Pipeline.arrRef spec1 w) := by
  dsimp only [rdat1]

set_option maxHeartbeats 1000000 in
/-- The body on whole staging buffers at ANY contents runs to the continuation holding each operand's as it was and
    the result's at some contents: three whole-buffer loads, a load of the result's buffer whose value is not used,
    and one whole-buffer store. -/
theorem sound_kernel1 (c : Dev nD) (E : Set ℕ) (i : grid1.Coords)
    (arg1 : Memref sig .tc .vmem S512x2048 .bf16) (harg1 : arg1.IsWhole) (arg2 : Memref sig .tc .vmem S2048x2048 .f32) (harg2 : arg2.IsWhole)
    (arg3 : Memref sig .tc .vmem S512x1 .f32) (harg3 : arg3.IsWhole) (arg4 : Memref sig .tc .vmem S512x2048 .f32) (harg4 : arg4.IsWhole)
    (x0 : Vec F S512x2048 .bf16) (x1 : Vec F S2048x2048 .f32) (x2 : Vec F S512x1 .f32) (x3 : Vec F S512x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (iprop(owns (c : Thread nD τ) arg1 fullShare x0 ∗ owns (c : Thread nD τ) arg2 fullShare x1 ∗ owns (c : Thread nD τ) arg3 fullShare x2
            ∗ (∃ d, owns (c : Thread nD τ) arg4 fullShare d)) -∗ K ⟨⟩))
      ⊢ wp frame (wpE (defs₀ (F := F)) Variants.none c none) E (cc1__retrieval_kernel i arg1 harg1 arg2 harg2 arg3 harg3 arg4 harg4) K := by
  simp only [cc1__retrieval_kernel_eq_skeleton]; unfold cc1__retrieval_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-- What the body is called with at point `t`, the windows' buffers at the contents `Y` it finds, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3))

/-- and what it returns. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X))

theorem sound_body1 (c : Dev nD) (t : Fin cfg1.N) (Y : (w : Fin cfg1.W) → (cfg1.win w).block.Idx → Elt F (cfg1.win w).elt) :
    bodyPre1 V c t Y ⊢ wp frame (wpE (defs₀ (F := F)) Variants.none c none) Set.univ (bodyAt1 t) (fun _ => bodyPost1 V c t Y) := by
  unfold bodyPre1 bodyPost1 bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3⟩
  iapply (sound_kernel1 c Set.univ _ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%d, H3⟩⟩
  isplitl [HΦ]; · iexact HΦ
  isplitl [Ho]; · iexact Ho
  isplitl [H0]
  · iexists _; isplitr; · ipureintro; exact fun _ => rfl
    iexact H0
  isplitl [H1]
  · iexists _; isplitr; · ipureintro; exact fun _ => rfl
    iexact H1
  isplitl [H2]
  · iexists _; isplitr; · ipureintro; exact fun _ => rfl
    iexact H2
  iexists d; isplitr; · ipureintro; exact fun h => absurd rfl h
  iexact H3

/-- The relational body obligation, at every point and whatever the buffers hold. -/
theorem body_obligation1 (c : Dev nD) : (rdat1 (F := F) V c).BodyObligation (defs₀ (F := F)) Variants.none () Set.univ := fun t Y _ => by
  rw [bigSep_W1, bigSep_W1]
  exact sound_body1 V c t Y

end Region1

end Cert.Kernel.Hand

end
-- ==== Proof.KernelFrame.lean ====
import proofs.«147248_j70643622085021_2_alg».proof.Proof.KernelFrameR0
import proofs.«147248_j70643622085021_2_alg».proof.Proof.KernelFrameR1
import proofs.«147248_j70643622085021_2_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the two host reshapes, the encoder, the retrieval

## The buffers' contents at each boundary -/

/-- What the encoder is entered from: the launch contents after the two host reshapes, at the TensorCore's references. -/
abbrev ent0 : (c : Dev nD) → (b : Ref sig .tc) → Buf (Elt F) ((c : Thread nD τ).loc b) := fun c b => V1 m c b

/-- At the encoder's exit: its arrays at what its write-backs leave (the operands as entered, the two results at their
    stored values), every other buffer as entered. -/
def W2 (c : Dev nD) : Valuation τ sig (Elt F) :=
  Pipeline.withArrays spec0 c (V1 m c) fun w => (dat0 (ent0 m) c).arrAt w cfg0.N

theorem W2_arr (c : Dev nD) (w : Fin cfg0.W) :
    W2 m c (Proc.devRef .tc (Pipeline.arrRef spec0 w)) = (dat0 (ent0 m) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb

/-- What the retrieval is entered from: the same, at the TensorCore's references. -/
abbrev ent1 : (c : Dev nD) → (b : Ref sig .tc) → Buf (Elt F) ((c : Thread nD τ).loc b) := fun c b => W2 m c b

theorem hF0 (c : Dev nD) (w : Fin cfg0.W) : (dat0 (ent0 m) c).arrAt w cfg0.N = ent1 m c (Pipeline.arrRef spec0 w) :=
  (W2_arr m c w).symm
theorem hrest0 (c : Dev nD) : ∀ b, b ∉ Finset.univ.image (Pipeline.arrRef spec0) → ent1 m c b = ent0 m c b :=
  fun b hb => W2_of_ne m c b fun w e => hb (Finset.mem_image.mpr ⟨w, Finset.mem_univ _, e⟩)

/-! ### Every argument reaches the retrieval as launched: the reshapes write two fresh buffers, and the encoder reads
    an argument through an operand window or not at all -/

theorem W2_main_arg0 (c : Dev nD) : W2 m c (Proc.devRef .tc main_arg0) = m ((c : Thread nD τ).loc main_arg0) :=
  (W2_arr m c 0).trans (((dat0 (ent0 m) c).arrAt_in 0 rfl _).trans ((A_eq0 (ent0 m) c 0).trans ((V1_of m c main_arg0 (by decide)).trans rfl)))
theorem W2_main_arg1 (c : Dev nD) : W2 m c (Proc.devRef .tc main_arg1) = m ((c : Thread nD τ).loc main_arg1) :=
  (W2_of_ne m c main_arg1 (by decide)).trans ((V1_of m c main_arg1 (by decide)).trans rfl)
theorem W2_main_arg2 (c : Dev nD) : W2 m c (Proc.devRef .tc main_arg2) = m ((c : Thread nD τ).loc main_arg2) :=
  (W2_arr m c 1).trans (((dat0 (ent0 m) c).arrAt_in 1 rfl _).trans ((A_eq0 (ent0 m) c 1).trans ((V1_of m c main_arg2 (by decide)).trans rfl)))
theorem W2_main_arg3 (c : Dev nD) : W2 m c (Proc.devRef .tc main_arg3) = m ((c : Thread nD τ).loc main_arg3) :=
  (W2_of_ne m c main_arg3 (by decide)).trans ((V1_of m c main_arg3 (by decide)).trans rfl)
theorem W2_main_arg4 (c : Dev nD) : W2 m c (Proc.devRef .tc main_arg4) = m ((c : Thread nD τ).loc main_arg4) :=
  (W2_arr m c 3).trans (((dat0 (ent0 m) c).arrAt_in 3 rfl _).trans ((A_eq0 (ent0 m) c 3).trans ((V1_of m c main_arg4 (by decide)).trans rfl)))
theorem W2_main_arg5 (c : Dev nD) : W2 m c (Proc.devRef .tc main_arg5) = m ((c : Thread nD τ).loc main_arg5) :=
  (W2_of_ne m c main_arg5 (by decide)).trans ((V1_of m c main_arg5 (by decide)).trans rfl)

/-! ## The proof data family and the thread state -/

/-- Both pipelines' proof data: the encoder's exact data read relationally, the retrieval's relational data, each at its
    region's entry contents. -/
def rdats : (p : Fin 2) → (c : Dev nD) → RDat τ (Elt F) Unit ℕ (UR sig nD τ) ℕ (Pipeline.pin (pcfgs (F := F)) adm p) c
  | ⟨0, _⟩ => fun c => (dat0 (ent0 m) c).toR
  | ⟨1, _⟩ => fun c => rdat1 (ent1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core owing
    nothing. -/
abbrev R (c : Dev nD) : sProp 𝕄 := iprop((∃ r, prngReg c r) ∗ ∃ W, owes (c : Thread nD τ) (0 : CellTallies nD τ sig Unit) W)

/-- A pipeline's arrays at contents `A` and the unscoped rest at `V` are the core's unscoped buffers at any valuation
    that has the arrays at `A` and agrees with `V` off them. -/
theorem held_of_arrays (p : Fin 2) (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays A ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-! ## The regions as segments -/

set_option backward.isDefEq.respectTransparency.types false in
/-- The encoder over the thread state: entered from every unscoped buffer at the contents after the reshapes, left at
    `W2`. Its arrays are split out of the unscoped buffers and put back at the exit contents; the generator register goes
    into the region's invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := held_of_arrays m 0 launch0.win launch0.arr_whole c ((rdats m 0 c).share_full fun _ => rfl)
      (ent0 m c) (ent1 m c) ((dat0 (ent0 m) c).arrAt · cfg0.N) (hF0 m c) (hrest0 m c)
    rw [Pipeline.unscopedBufs_held] at hjoin
    iintro ⟨Ha, HO, HY, Hrest⟩
    have hexact : ((rdats m 0 c).arraysAt (Pipeline.pin (pcfgs (F := F)) adm 0).N : sProp 𝕄)
        ⊢ (rdats m 0 c).arrays ((dat0 (ent0 m) c).arrAt · cfg0.N) := Pipeline.Dat.toR_arraysAt_post (dat0 (ent0 m) c) cfg0.N
    ihave Ha' := hexact $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- What the run ends holding on core `c`, the core owing nothing apart: the retrieval's arrays at some contents they may
    hold after every write-back, and every other unscoped buffer as the retrieval was entered. -/
abbrev Tₙ (c : Dev nD) : sProp 𝕄 :=
  iprop((rdats m 1 c).arraysAt cfg1.N ∗ Pipeline.unscopedRest (Ix := Unit) (Name := ℕ) (U := UR sig nD τ) (Lvl := ℕ) spec1 c (ent1 m c))

set_option backward.isDefEq.respectTransparency.types false in
/-- The retrieval over the thread state: entered from every unscoped buffer at `W2`; at its exit its arrays are kept as
    the pipeline leaves them — the result's at contents nothing states — beside the buffers that bypassed it. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (ent1 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, -, Hrest⟩
    imodintro
    isplitl [Ha Hrest]
    · isplitl [Ha]; · iexact Ha
      iexact Hrest
    unfold Pipeline.RDat.owesAt Pipeline.owesWithin
    icases HO with ⟨%W, -, HO⟩; iexists W; iexact HO

/-! ## @main as segments, and the launch -/

/-- @main's three segments in order: the host reshapes from the launch contents, then the two regions. -/
abbrev fsegs : List (Pipeline.RDat.Seg (pcfgs (F := F)) adm (rdats m) () defs₀ 𝒱₀ L lv) :=
  [ .host (seg0 m 𝒱₀ L lv fun _ => R),
    .region (reg0 m),
    .region (reg1 m) ]

set_option backward.isDefEq.respectTransparency.types false in
/-- The program runs and changes no argument: launched on any memory with every counter at zero, every weakly fair
    execution of @main on the TensorCores terminates without a fault, and in every final state each of the six argument
    arrays holds what it held at launch. The result array is not mentioned: what the last block's store puts in it
    depends on staging words no fetch filled. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm (rdats m) () cellOf_inj emb₁ defs₀ 𝒱₀ L lv m ρ main (fsegs m)
    (fun c Q => by
      rewrite [main_chain c, Pipeline.RDat.Seg.run_eq_chain,
        show (fsegs m).map Pipeline.RDat.Seg.prog = [
          StableHlo.seq hostOps0,
          Prog.lift (.customCall (Pipeline.entry 0) ()),
          Prog.lift (.customCall (Pipeline.entry 1) ()) ] from rfl]
      exact .rfl)
    (by simp only [fsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      iintro ⟨⟨Ha, Hrest⟩, HSI⟩
      ihave H1 := (Pipeline.RDat.arrays_read (pcfgs (F := F)) adm (rdats m) (p := 1) launch1.arr_whole c cfg1.N s') $$ [Ha HSI]
      · isplitl [Ha] <;> iassumption
      icases H1 with ⟨%hA, HSI⟩
      unfold Pipeline.unscopedRest
      ihave H2 := (pointsTo_read_all _ (fun b : Ref sig .tc => (c : Thread nD τ).loc b) (ent1 m c) s') $$ [Hrest HSI]
      · isplitl [Hrest] <;> iassumption
      icases H2 with ⟨%hR, HSI⟩
      imodintro
      isplitr
      · ipureintro
        have h1 := hA 1
        rw [Pipeline.RDat.ArrAt_in (rdats m 1 c) 1 rfl] at h1
        exact ⟨(hR main_arg0 (by decide)).trans (W2_main_arg0 m c),
          h1.trans (W2_main_arg1 m c),
          (hR main_arg2 (by decide)).trans (W2_main_arg2 m c),
          (hR main_arg3 (by decide)).trans (W2_main_arg3 m c),
          (hR main_arg4 (by decide)).trans (W2_main_arg4 m c),
          (hR main_arg5 (by decide)).trans (W2_main_arg5 m c)⟩
      · iexact HSI)
    (hQ := fun _ h => h)

end Cert.Kernel.Hand

end
-- ==== Proof.Data.lean ====
/-
  What the idealized program's two kernel regions hold, point by point.

  Region 0 runs once. It reads the molecules, the two weight matrices and the two biases (as rows `[1, 1024]`) whole and
  leaves, in its two result buffers, the projected queries `p b f = ∑ a, q b a * wk a f` and their offsets `o b`.

  Region 1 runs at 25 points. At point `t` it reads the projected queries and the offsets whole and block `t` of the
  templates — rows `2048 t … 2048 t + 2047`, of which only those below 50000 exist: the last block keeps 848 rows of the
  array and the rest of its buffer holds values nothing names — and leaves in the result's buffer the logits of all 512
  molecules against those rows, of which the write-back keeps the columns inside the array. A logit's column depends on its
  own template row only, so the columns written back never see the unnamed rows: the data below fill them with zero.

  The contents of every buffer between the host stretch and the two regions are then a fold from the launch memory:
  after the two host reshapes, after region 0's write-backs, after region 1's.
-/
import proofs.«147248_j70643622085021_2_alg».proof.Proof.Gen.KernelIdeal.Launch
import proofs.«147248_j70643622085021_2_alg».proof.Proof.Gen.KernelIdeal.Skeleton
import proofs.«147248_j70643622085021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

section Regions

-- the buffers' contents when a region is entered
variable (V : (c : Dev nD) → (b : Ref sig .tc) → Buf (Elt F) ((c : Thread nD τ).loc b))

/-! ## Region 0 -/

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body: every input's buffer at its block; the first result's at the projected queries and the second's at
    the offsets, both as the body's arithmetic of the five input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t) (iblk0 V c 3 t)
    | ⟨6, _⟩ => k0_pay3 (iblk0 V c 0 t) (iblk0 V c 1 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 0 t) (iblk0 V c 1 t) (iblk0 V c 2 t) (iblk0 V c 3 t) := by dsimp only [dat0]
theorem after0_6 (c : Dev nD) (t : Fin cfg0.N) :
    (dat0 V c).after 6 t = k0_pay3 (iblk0 V c 0 t) (iblk0 V c 1 t) (iblk0 V c 2 t) (iblk0 V c 4 t) := by dsimp only [dat0]

/-! ## Region 1 -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The templates' block at point `t` as a whole `[2048, 2048]` buffer: the rows inside the array, zero below them. -/
def tblk (c : Dev nD) (t : Fin cfg1.N) : S2048x2048.Idx → Elt F .f32 :=
  win1_1.fill (grid1.coords t) (fun _ => Scalar.ofBits .f32 0#32) (iblk1 V c 1 t)

/-- The logits' block at point `t` as a whole `[512, 2048]` buffer: the body's arithmetic of the projected queries, the
    templates' block and the offsets. -/
def oblk (c : Dev nD) (t : Fin cfg1.N) : S512x2048.Idx → Elt F .f32 :=
  k1_pay1 (iblk1 V c 0 t) (tblk V c t) (iblk1 V c 2 t)

/-- After the body at point `t`: the three inputs' buffers at their blocks, the result's at the logits' block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => tblk V c t
    | ⟨2, _⟩ => iblk1 V c 2 t
    | ⟨3, _⟩ => oblk V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = tblk V c t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oblk V c t := by dsimp only [dat1]

end Regions

/-! ## The buffers' contents at each boundary -/

/-- At launch. -/
abbrev W0 : Dev nD → Valuation τ sig (Elt F) := fun c b => (s₀ m ρ).mem ((c : Dev nD), b)
/-- After the two host reshapes: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what its write-backs leave, every other buffer as entered; region 1's entry. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After region 1: the end. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

end Cert.KernelIdeal.Hand

end
-- ==== Proof.Run.lean ====
/-
  The idealized program's whole run: the two host reshapes, the one-point region that forms the projected queries and
  their offsets, the 25-point region that forms the logits. Each region is entered from every unscoped buffer at the
  contents the segment before it left and leaves them at its own arrays' final contents, every other buffer untouched;
  beside the buffers ride the core's generator register and the fact that it owes nothing. The run's post reads every
  unscoped buffer off the last of those contents — the arguments among them, and the logits.

  What each kernel body does at a point is taken here as given (the two obligations below); the regions' records only
  move the arrays in and out of the thread state.
-/
import proofs.«147248_j70643622085021_2_alg».proof.Proof.Data

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit each of its arrays holds what its write-backs leave and every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at region 1's exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

section Run

variable (hb0 : ∀ c : Dev nD, BodyObligation (dat0 (F := F) (V1 m ρ) c) (defs₀ (F := F)) Variants.none () Set.univ)
variable (hb1 : ∀ c : Dev nD, BodyObligationLoose (dat1 (F := F) (V2 m ρ) c) (defs₀ (F := F)) Variants.none () Set.univ)

set_option backward.isDefEq.respectTransparency.types false in
/-- Region 0 over the thread state: entered from every unscoped buffer after the reshapes, left with its two result
    arrays at what its write-back leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from what region 0 left, left with the logits array at what its 25
    write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1) ]

/-- @main is the run of the segments. -/
theorem main_run (c : Dev nD) : main (F := F) c = Pipeline.Seg.run (segs m ρ hb0 hb1) := (main_chain c).trans (by chain_rfl)

include hb0 hb1 in
set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Run

end Cert.KernelIdeal.Hand

end
-- ==== Proof.Args.lean ====
/-
  The six arguments end as launched. No host operation and no region writes one: the two reshapes write their own
  results; region 0 reads the molecules and the two weight matrices through input windows and never sees the templates
  or the two bias vectors; region 1 reads the templates through an input window and sees no other argument. So each
  argument's buffer, read off the last boundary's contents, walks back to the launch memory.
-/
import proofs.«147248_j70643622085021_2_alg».proof.Proof.Run

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat BodyObligation BodyObligationLoose)

variable {F : FTy → Type} [FloatOps F]

variable (m : (ℓ : Loc nD τ sig) → Buf (Elt F) ℓ) (ρ : Dev nD → PrngReg)

/-- The two reshapes write only their own results. -/
theorem W1_keeps (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- An input window's array is never written: region 0's. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- Region 1's. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_keeps m ρ c main_arg0 (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_in m ρ c 1 rfl
    _ = W1 m ρ c (Proc.devRef .tc main_arg1) := W2_of_ne m ρ c main_arg1 (by decide)
    _ = W0 m ρ c (Proc.devRef .tc main_arg1) := W1_keeps m ρ c main_arg1 (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_in m ρ c 1 rfl
    _ = W0 m ρ c (Proc.devRef .tc main_arg2) := W1_keeps m ρ c main_arg2 (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide) (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_in m ρ c 3 rfl
    _ = W0 m ρ c (Proc.devRef .tc main_arg4) := W1_keeps m ρ c main_arg4 (by decide) (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keeps m ρ c main_arg5 (by decide) (by decide)
    _ = m ((c : Thread nD τ).loc main_arg5) := rfl

/-- The run with the logits array and the six arguments named: every weakly fair execution terminates, the result
    buffer ends at the last boundary's contents and each argument as launched. -/
theorem run_named
    (hb0 : ∀ c : Dev nD, BodyObligation (dat0 (F := F) (V1 m ρ) c) (defs₀ (F := F)) Variants.none () Set.univ)
    (hb1 : ∀ c : Dev nD, BodyObligationLoose (dat1 (F := F) (V2 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v3 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩)
    (run_all m ρ hb0 hb1)

end Cert.KernelIdeal.Hand

end
-- ==== Proof.Region0.lean ====
/-
  Region 0's body, at its one grid point.

  The body reads five whole buffers — the molecules `x`, the query weights `wq`, the query bias as a row, the key
  weights `wk`, the key bias as a row — and overwrites two whole buffers: the projected queries
  `p b f = ∑ a, q b a * wk a f` and the offsets `o b = ∑ a, q b a * ck a`, where `q b a = (∑ f, x b f * wq a f) + cq a`.
  Each result is written by ONE store that spans its whole buffer, so what the body leaves there is that store's
  value, whatever the buffer held before; and each of the five inputs is read through the rectangle that spans its
  whole buffer, so the value read is the buffer's contents, which at the one point are the window's block of its array.

  Stated for any float interpretation: nothing here looks inside the two results' arithmetic.
-/
import proofs.«147248_j70643622085021_2_alg».proof.Proof.Data
import Idealize.ShloMosaic.Lib.Pipeline.Value

-- a rectangle of extents 512 × 2048 or 1024 × 2048: the structural checks recurse once per coordinate of a long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the buffers' contents when the region is entered
variable (V : (c : Dev nD) → (b : Ref sig .tc) → Buf (Elt F) ((c : Thread nD τ).loc b))

/-! ## What the body finds in each input's buffer

An input's buffer holds the window's block at every point, fetched there or not: where it is not fetched the block
index has not moved since the point before. Stated for any proof data whose array is the entry contents' (`hA`) and
whose body leaves the block in place (`hafter`); the window is whole (nothing cut off) and never idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- At the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The rectangles the body reads and writes through

Every access is of a whole buffer: the rectangle at offset zero whose sizes are the buffer's own. -/

abbrev rMol : Rect S512x2048 := Rect.unit (s := S512x2048) ![0, 0] S512x2048.size inb_S512x2048_S512x2048_0_0
abbrev rWgt : Rect S1024x2048 := Rect.unit (s := S1024x2048) ![0, 0] S1024x2048.size inb_S1024x2048_S1024x2048_0_0
abbrev rRow : Rect S1x1024 := Rect.unit (s := S1x1024) ![0, 0] S1x1024.size inb_S1x1024_S1x1024_0_0
abbrev rCol : Rect S512x1 := Rect.unit (s := S512x1) ![0, 0] S512x1.size inb_S512x1_S512x1_0_0

/-- The offsets `(0, 0)`, as the constant function. -/
theorem off_zero : (![0, 0] : Fin 2 → Nat) = fun _ => 0 := funext fun a => by fin_cases a <;> rfl

/-- The one store into the projected queries' buffer spans it: one block of the buffer's own size tiles it. -/
theorem cover0_5 (p : Vec F S512x2048 .bf16) (y : S512x2048.Idx) :
    ∃ pc ∈ ([⟨rMol, p⟩] : List (View.Piece (Elt F) S512x2048 .bf16)), y ∈ pc.1.set :=
  View.cover_of_tiled [⟨rMol, p⟩] S512x2048.size (by rfl) y

/-- The one store into the offsets' buffer spans it. -/
theorem cover0_6 (p : Vec F S512x1 .f32) (y : S512x1.Idx) :
    ∃ pc ∈ ([⟨rCol, p⟩] : List (View.Piece (Elt F) S512x1 .f32)), y ∈ pc.1.set :=
  View.cover_of_tiled [⟨rCol, p⟩] S512x1.size (by rfl) y

/-! ## The body's triple -/

set_option maxHeartbeats 1000000 in
/-- The body on seven whole buffers, the five inputs' reading `x0 … x4` and the two results' holding anything, runs to
    the continuation with the inputs' as they were, the first result's at the projected queries of `x0 x1 x2 x3` and the
    second's at the offsets of `x0 x1 x2 x4`. The body first reads each result's buffer and drops the value; the store
    that follows spans the buffer, so nothing of what was read, or of what the buffer held, is left. -/
theorem sound_kernel0 (c : Dev nD) (E : Set ℕ) (i : grid0.Coords)
    (arg1 : Memref sig .tc .vmem S512x2048 .f32) (harg1 : arg1.IsWhole)
    (arg2 : Memref sig .tc .vmem S1024x2048 .f32) (harg2 : arg2.IsWhole)
    (arg3 : Memref sig .tc .vmem S1x1024 .f32) (harg3 : arg3.IsWhole)
    (arg4 : Memref sig .tc .vmem S1024x2048 .f32) (harg4 : arg4.IsWhole)
    (arg5 : Memref sig .tc .vmem S1x1024 .f32) (harg5 : arg5.IsWhole)
    (arg6 : Memref sig .tc .vmem S512x2048 .bf16) (harg6 : arg6.IsWhole)
    (arg7 : Memref sig .tc .vmem S512x1 .f32) (harg7 : arg7.IsWhole)
    (x0 : Vec F S512x2048 .f32) (x1 : Vec F S1024x2048 .f32) (x2 : Vec F S1x1024 .f32)
    (x3 : Vec F S1024x2048 .f32) (x4 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay2 x0 x1 x2 x3)
            ∗ owns (c : Thread nD τ) arg7 fullShare (k0_pay3 x0 x1 x2 x4)) -∗ K ⟨⟩))
      ⊢ wp frame (wpE (defs₀ (F := F)) Variants.none c none) E
          (cc0__encode_kernel i arg1 harg1 arg2 harg2 arg3 harg3 arg4 harg4 arg5 harg5 arg6 harg6 arg7 harg7) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    -- the store spans the buffer: what is read back is its value; each whole-buffer read is the contents read
    rw [View.read_writes_eq_canon _ _ _ (cover0_5 _), View.canon_unit_zero off_zero]
    simp only [View.readAt_eq_ld, View.ld_unit_zero (S := S512x2048) off_zero, View.ld_unit_zero (S := S1024x2048) off_zero,
      View.ld_unit_zero (S := S1x1024) off_zero]
  iexists _; isplitr
  swap; · iexact H6
  ipureintro
  rw [View.read_writes_eq_canon _ _ _ (cover0_6 _), View.canon_unit_zero off_zero]
  simp only [View.readAt_eq_ld, View.ld_unit_zero (S := S512x2048) off_zero, View.ld_unit_zero (S := S1024x2048) off_zero,
    View.ld_unit_zero (S := S1x1024) off_zero]

/-! ## The body obligation -/

/-- What the body is called with at the point: the region's invariant, what is owed, and the seven windows' current
    buffers — each input's at what it holds, each result's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant, and every window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' buffers hold their blocks, so the triple above applies at those five blocks; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Region 0's body obligation over the proof data `dat0`, at its one point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«147248_j70643622085021_2_alg».proof.Proof.LibKeepdims
import proofs.«147248_j70643622085021_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.Payloads.lean ====
/-
  The two kernels' arithmetic, read at one entry.

  First kernel, on molecules x [512, 2048], query weights wq [1024, 2048], query bias cq [1, 1024], key weights
  wk [1024, 2048] and key bias ck [1, 1024]:
    * the query            q(b, a) = (∑ f, x(b, f) · wq(a, f)) + cq(0, a)          (`pay1_apply`);
    * the projected query  p(b, f) = ∑ a, q(b, a) · wk(a, f)                       (`pay2_apply`);
    * the offset           o(b)    = ∑ a, q(b, a) · ck(0, a), kept as a column     (`pay3_apply`).
  Second kernel, on p [512, 2048], one block y [2048, 2048] of template rows and the column o [512, 1]:
    * the logit  β · ((∑ f, p(b, f) · y(j, f)) + o(b, 0)), β the number whose f32 word is 0x3E000000
      (`payOut_apply`); column j of the result reads row j of the block and no other row (`payOut_congr_row`).

  Over the extended reals a change of number format is the identity; a matrix product into a zero accumulator is
  the plain sum over the contracted axis; a transposed matrix read at (k, a) is the matrix at (a, k); a one-row
  matrix spread over many rows reads its one row, and a one-column matrix spread over many columns its one column;
  a sum along the rows of a matrix, read at row b, is the sum of that row's entries; a cast between equal shapes
  changes nothing. Each statement below is its kernel's chain of these operations, read at an entry and composed.
-/
import proofs.«147248_j70643622085021_2_alg».proof.Proof.Gen.KernelIdeal.Skeleton
import proofs.«147248_j70643622085021_2_alg».proof.Proof.LibDenseLayer
import proofs.«147248_j70643622085021_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The three matrix products at an entry

Each product contracts the left operand's columns with the right operand's rows: entry (p, q) of L · R is
∑ k, L(p, k) · R(k, q). The four facts asked of a product's dimension numbers say exactly that: the left index takes
the output row and the contraction position, the right index the contraction position and the output column. -/

/-- [512, 2048] · [2048, 1024]: the molecules against the transposed query weights. -/
theorem matmul_x_wqT (L : FVec Ideal S512x2048 .bf16) (R : FVec Ideal S2048x1024 .bf16) (p : Fin 512) (q : Fin 1024) :
    matmul dot_S512x2048_S2048x1024_S512x1024_1_0_0_1_n_n none L R (constant (F := Ideal) S512x1024 .f32 0x00000000#32) (ix2 p q)
      = ∑ k : Fin 2048, L (ix2 p k) * R (ix2 k q) := by
  refine Cert.DenseLayer.matmul_rows_cols dot_S512x2048_S2048x1024_S512x1024_1_0_0_1_n_n rfl rfl
    (fun i c => ?_) (fun i c => ?_) (fun i c => ?_) (fun i c => ?_) none L R p q
  · unfold DotDims.lhsIdx
    rw [dif_neg (show ¬(0 : Fin S512x2048.rank) ∈ dot_S512x2048_S2048x1024_S512x1024_1_0_0_1_n_n.lhsBatch by decide),
      dif_pos (show (0 : Fin S512x2048.rank) ∈ dot_S512x2048_S2048x1024_S512x1024_1_0_0_1_n_n.lhsNonContracting by decide)]
    rfl
  · exact dot_S512x2048_S2048x1024_S512x1024_1_0_0_1_n_n.lhsIdx_val_of_single rfl i c
  · exact dot_S512x2048_S2048x1024_S512x1024_1_0_0_1_n_n.rhsIdx_val_of_single rfl i c
  · unfold DotDims.rhsIdx
    rw [dif_neg (show ¬(1 : Fin S2048x1024.rank) ∈ dot_S512x2048_S2048x1024_S512x1024_1_0_0_1_n_n.rhsBatch by decide),
      dif_pos (show (1 : Fin S2048x1024.rank) ∈ dot_S512x2048_S2048x1024_S512x1024_1_0_0_1_n_n.rhsNonContracting by decide)]
    rfl

/-- [512, 1024] · [1024, 2048]: the queries against the key weights. -/
theorem matmul_q_wk (L : FVec Ideal S512x1024 .bf16) (R : FVec Ideal S1024x2048 .bf16) (p : Fin 512) (q : Fin 2048) :
    matmul dot_S512x1024_S1024x2048_S512x2048_1_0_0_1_n_n none L R (constant (F := Ideal) S512x2048 .f32 0x00000000#32) (ix2 p q)
      = ∑ k : Fin 1024, L (ix2 p k) * R (ix2 k q) := by
  refine Cert.DenseLayer.matmul_rows_cols dot_S512x1024_S1024x2048_S512x2048_1_0_0_1_n_n rfl rfl
    (fun i c => ?_) (fun i c => ?_) (fun i c => ?_) (fun i c => ?_) none L R p q
  · unfold DotDims.lhsIdx
    rw [dif_neg (show ¬(0 : Fin S512x1024.rank) ∈ dot_S512x1024_S1024x2048_S512x2048_1_0_0_1_n_n.lhsBatch by decide),
      dif_pos (show (0 : Fin S512x1024.rank) ∈ dot_S512x1024_S1024x2048_S512x2048_1_0_0_1_n_n.lhsNonContracting by decide)]
    rfl
  · exact dot_S512x1024_S1024x2048_S512x2048_1_0_0_1_n_n.lhsIdx_val_of_single rfl i c
  · exact dot_S512x1024_S1024x2048_S512x2048_1_0_0_1_n_n.rhsIdx_val_of_single rfl i c
  · unfold DotDims.rhsIdx
    rw [dif_neg (show ¬(1 : Fin S1024x2048.rank) ∈ dot_S512x1024_S1024x2048_S512x2048_1_0_0_1_n_n.rhsBatch by decide),
      dif_pos (show (1 : Fin S1024x2048.rank) ∈ dot_S512x1024_S1024x2048_S512x2048_1_0_0_1_n_n.rhsNonContracting by decide)]
    rfl

/-- [512, 2048] · [2048, 2048]: the projected queries against a transposed block of templates. -/
theorem matmul_p_yT (L : FVec Ideal S512x2048 .bf16) (R : FVec Ideal S2048x2048 .bf16) (p : Fin 512) (q : Fin 2048) :
    matmul dot_S512x2048_S2048x2048_S512x2048_1_0_0_1_n_n none L R (constant (F := Ideal) S512x2048 .f32 0x00000000#32) (ix2 p q)
      = ∑ k : Fin 2048, L (ix2 p k) * R (ix2 k q) := by
  refine Cert.DenseLayer.matmul_rows_cols dot_S512x2048_S2048x2048_S512x2048_1_0_0_1_n_n rfl rfl
    (fun i c => ?_) (fun i c => ?_) (fun i c => ?_) (fun i c => ?_) none L R p q
  · unfold DotDims.lhsIdx
    rw [dif_neg (show ¬(0 : Fin S512x2048.rank) ∈ dot_S512x2048_S2048x2048_S512x2048_1_0_0_1_n_n.lhsBatch by decide),
      dif_pos (show (0 : Fin S512x2048.rank) ∈ dot_S512x2048_S2048x2048_S512x2048_1_0_0_1_n_n.lhsNonContracting by decide)]
    rfl
  · exact dot_S512x2048_S2048x2048_S512x2048_1_0_0_1_n_n.lhsIdx_val_of_single rfl i c
  · exact dot_S512x2048_S2048x2048_S512x2048_1_0_0_1_n_n.rhsIdx_val_of_single rfl i c
  · unfold DotDims.rhsIdx
    rw [dif_neg (show ¬(1 : Fin S2048x2048.rank) ∈ dot_S512x2048_S2048x2048_S512x2048_1_0_0_1_n_n.rhsBatch by decide),
      dif_pos (show (1 : Fin S2048x2048.rank) ∈ dot_S512x2048_S2048x2048_S512x2048_1_0_0_1_n_n.rhsNonContracting by decide)]
    rfl

/-! ## The first kernel -/

/-- The query at (b, a): row b of the molecules against row a of the query weights (the weights enter the product
    transposed), plus the bias's entry a (its one row spread over the 512 molecules). -/
theorem pay1_apply (v0 : Vec Ideal S512x2048 .f32) (v2 : Vec Ideal S1024x2048 .f32) (v6 : Vec Ideal S1x1024 .f32)
    (b : Fin 512) (a : Fin 1024) :
    k0_pay1 (F := Ideal) v0 v2 v6 (ix2 b a)
      = (∑ f : Fin 2048, v0 (ix2 b f) * v2 (ix2 a f)) + v6 (ix2 (0 : Fin 1) a) := by
  unfold k0_pay1
  refine (addf_apply _ _ (ix2 b a)).trans ?_
  refine congrArg₂ (fun x y : EReal => x + y) ?_ ?_
  · refine (matmul_x_wqT _ _ b a).trans (Finset.sum_congr rfl fun f _ => ?_)
    refine congrArg (fun y : EReal => v0 (ix2 b f) * y) ?_
    exact transpose_ix2_apply _ _ f a
  · refine (broadcastTo_1b_ab_apply _ _ b a).trans ?_
    exact congrFun (shapeCast_self v6 _) _

/-- The projected query at (b, f): row b of the queries against column f of the key weights. -/
theorem pay2_apply (v0 : Vec Ideal S512x2048 .f32) (v2 : Vec Ideal S1024x2048 .f32) (v6 : Vec Ideal S1x1024 .f32)
    (v11 : Vec Ideal S1024x2048 .f32) (b : Fin 512) (f : Fin 2048) :
    k0_pay2 (F := Ideal) v0 v2 v6 v11 (ix2 b f)
      = ∑ a : Fin 1024, k0_pay1 (F := Ideal) v0 v2 v6 (ix2 b a) * v11 (ix2 a f) := by
  unfold k0_pay2
  generalize k0_pay1 (F := Ideal) v0 v2 v6 = q
  exact matmul_q_wk _ _ b f

/-- The offset at row b: the sum over a of the query's entry (b, a) times the key bias's entry a (the bias's one row
    spread over the 512 molecules, the products summed along each row, the sums kept as a column). -/
theorem pay3_apply (v0 : Vec Ideal S512x2048 .f32) (v2 : Vec Ideal S1024x2048 .f32) (v6 : Vec Ideal S1x1024 .f32)
    (v16 : Vec Ideal S1x1024 .f32) (b : Fin 512) :
    k0_pay3 (F := Ideal) v0 v2 v6 v16 (ix2 b (0 : Fin 1))
      = ∑ a : Fin 1024, k0_pay1 (F := Ideal) v0 v2 v6 (ix2 b a) * v16 (ix2 (0 : Fin 1) a) := by
  unfold k0_pay3
  generalize k0_pay1 (F := Ideal) v0 v2 v6 = q
  refine (Cert.Keepdims.shapeCast_a_a1_apply _ _ b 0).trans ?_
  refine (Cert.RowReduce.rowSum_apply _ _ _ _ _ b).trans ?_
  refine Finset.sum_congr rfl fun a _ => ?_
  refine (mulf_apply _ _ (ix2 b a)).trans ?_
  refine congrArg (fun y : EReal => q (ix2 b a) * y) ?_
  refine (broadcastTo_1b_ab_apply _ _ b a).trans ?_
  exact congrFun (shapeCast_self v16 _) _

/-! ## The second kernel -/

/-- The logit at (b, j): β times (row b of the projected queries against row j of the template block — the block
    enters the product transposed — plus the offset of row b, its one column spread over the block's 2048 templates). -/
theorem payOut_apply (v0 : Vec Ideal S512x2048 .bf16) (v2 : Vec Ideal S2048x2048 .f32) (v6 : Vec Ideal S512x1 .f32)
    (b : Fin 512) (j : Fin 2048) :
    k1_pay1 (F := Ideal) v0 v2 v6 (ix2 b j)
      = Ideal.ofBits .f32 0x3E000000#32 * ((∑ f : Fin 2048, v0 (ix2 b f) * v2 (ix2 j f)) + v6 (ix2 b (0 : Fin 1))) := by
  unfold k1_pay1
  refine (mulf_apply _ _ (ix2 b j)).trans ?_
  refine congrArg (fun y : EReal => Ideal.ofBits .f32 0x3E000000#32 * y) ?_
  refine (addf_apply _ _ (ix2 b j)).trans ?_
  refine congrArg₂ (fun x y : EReal => x + y) ?_ ?_
  · refine (matmul_p_yT _ _ b j).trans (Finset.sum_congr rfl fun f _ => ?_)
    refine congrArg₂ (fun x y : EReal => x * y) ?_ ?_
    · exact congrFun (shapeCast_self v0 _) _
    · exact transpose_ix2_apply _ _ f j
  · refine (Cert.Keepdims.broadcastTo_a1_ab_apply _ _ b j).trans ?_
    exact congrFun (shapeCast_self v6 _) _

/-- Column j of the logits reads row j of the template block only: two blocks that agree on row j give the same
    entry (b, j), for every b. -/
theorem payOut_congr_row (v0 : Vec Ideal S512x2048 .bf16) (v2 v2' : Vec Ideal S2048x2048 .f32) (v6 : Vec Ideal S512x1 .f32)
    (b : Fin 512) (j : Fin 2048) (h : ∀ f : Fin 2048, v2 (ix2 j f) = v2' (ix2 j f)) :
    k1_pay1 (F := Ideal) v0 v2 v6 (ix2 b j) = k1_pay1 (F := Ideal) v0 v2' v6 (ix2 b j) := by
  refine (payOut_apply v0 v2 v6 b j).trans (Eq.trans ?_ (payOut_apply v0 v2' v6 b j).symm)
  refine congrArg (fun s : EReal => Ideal.ofBits .f32 0x3E000000#32 * (s + v6 (ix2 b (0 : Fin 1)))) ?_
  exact Finset.sum_congr rfl fun f _ => congrArg (fun y : EReal => v0 (ix2 b f) * y) (h f)

end Cert.KernelIdeal.Pay

end
-- ==== Proof.Region1.lean ====
/-
  Region 1 of the idealized program, point by point: what the retrieval body leaves in its four staging buffers at
  each of the 25 grid points, against the exact proof data of `Data.lean`.

  At point `t` the body reads three buffers whole — the projected queries `p` ([512, 2048]), a [2048, 2048] buffer of
  template rows `y`, the offsets `o` ([512, 1]) — and stores over the whole of the result's [512, 2048] buffer the scaled
  logits: entry `(b, j)` is `β * ((∑ f, p b f * y j f) + o b)`, molecule `b` against the buffer's row `j`.

  The templates' array has 50000 = 24 * 2048 + 848 rows. At the first 24 points the fetch fills the templates' buffer
  with 2048 rows of the array; at the last it fills the first 848 rows and the other 1200 hold values nothing names.
  The result's array has 50000 columns, and the write-back keeps as many columns of the result's buffer as the fetch
  filled rows of the templates'. The proof data name the templates' buffer with zeros below the array's end, and the
  result's buffer as the logits against that; what the body really leaves differs from both below the array's end,
  and the obligation asks each of the two buffers only on the part its transfers move. For the templates' buffer that
  part is the fetched block itself. For the result's it is the columns `j` inside the array, and entry `(b, j)` reads row
  `j` of the templates' buffer and no other: a row inside the array, where the buffer and the named contents agree.
  That is `cut_pay_congr`, the one place where the body's arithmetic is consulted, through its locality in the
  template row alone.

  The projected queries and the offsets are fetched at the first point only and never written: their buffers hold the
  whole arrays at every point. The result's buffer is written back at every point, so the body finds in it nothing
  that is named, and overwrites all of it.
-/
import proofs.«147248_j70643622085021_2_alg».proof.Proof.Data
import proofs.«147248_j70643622085021_2_alg».proof.Proof.Payloads
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The result's window is an output: the pipeline never fetches it. -/
theorem fetch1_3 : ∀ t : Fin cfg1.N, (cfg1.win 3).fetch t = false :=
  (by decide +kernel : ∀ t : Fin grid1.N, win1_3.fetch t = false)

/-- The projected queries' buffer holds the whole array at every point, fetched there or not: the window is never cut
    and its block index never moves. -/
theorem before1_0 (c : Dev nD) (t : Fin cfg1.N) (d : S512x2048.Idx → Elt F .bf16) :
    (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The offsets' buffer likewise. -/
theorem before1_2 (c : Dev nD) (t : Fin cfg1.N) (d : S512x1.Idx → Elt F .f32) :
    (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The templates' buffer is fetched at every point: it holds the block's rows inside the array above whatever `d` the
    fetch left below the array's end. -/
theorem before1_1 (c : Dev nD) (t : Fin cfg1.N) (d : S2048x2048.Idx → Elt F .f32) :
    (dat1 V c).before 1 t d = win1_1.fill (grid1.coords t) d (iblk1 V c 1 t) := by
  unfold Dat.before; rw [if_pos (fetch1_1 t)]
  unfold Dat.fetched Dat.blockOf iblk1; rw [A_eq1]; try rfl

/-- The result's buffer is written back at every point: the body finds in it contents nothing names, at the first
    point as after a write-back. -/
theorem before1_3 (c : Dev nD) (t : Fin cfg1.N) (d : S512x2048.Idx → Elt F .f32) : (dat1 V c).before 3 t d = d := by
  by_cases ht : t.val = 0
  · unfold Dat.before
    rw [if_neg (by rw [fetch1_3 t]; exact Bool.false_ne_true), if_pos ht]
  · rw [(dat1 V c).before_of_pos 3 t ht (fetch1_3 t), if_pos (flush1_3 _)]

set_option maxHeartbeats 1000000 in
/-- The body on whole staging memrefs: it loads the projected queries `x0`, the templates' block `x1` and the offsets
    `x2` whole, loads the result's buffer (a value nothing reads) and stores over the whole of it the scaled logits
    `k1_pay1 x0 x1 x2`; the three inputs' buffers are left as they were. A whole load reads the contents and one whole
    store leaves its payload, whatever the buffer held. -/
theorem sound_kernel1 (c : Dev nD) (E : Set ℕ) (i : grid1.Coords)
    (arg1 : Memref sig .tc .vmem S512x2048 .bf16) (harg1 : arg1.IsWhole)
    (arg2 : Memref sig .tc .vmem S2048x2048 .f32) (harg2 : arg2.IsWhole)
    (arg3 : Memref sig .tc .vmem S512x1 .f32) (harg3 : arg3.IsWhole)
    (arg4 : Memref sig .tc .vmem S512x2048 .f32) (harg4 : arg4.IsWhole)
    (x0 : Vec F S512x2048 .bf16) (x1 : Vec F S2048x2048 .f32) (x2 : Vec F S512x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__retrieval_kernel i arg1 harg1 arg2 harg2 arg3 harg3 arg4 harg4) K := by
  have hz : (![0, 0] : Fin 2 → Nat) = fun _ => 0 := funext fun a => by fin_cases a <;> rfl
  simp only [cc1__retrieval_kernel_eq_skeleton]; unfold cc1__retrieval_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz inb_S512x2048_S512x2048_0_0 y⟩),
    View.canon_unit_zero hz, View.readAt_eq_ld, View.readAt_eq_ld, View.readAt_eq_ld,
    View.ld_unit_zero hz, View.ld_unit_zero hz, View.ld_unit_zero hz]

/-- Decided over the 25 points once: the result's block keeps as many columns as the templates' block keeps rows
    (2048 at the first 24 points, 848 at the last), the templates' block keeps its 2048 columns, the result's its 512 rows. -/
theorem xsizes1 : ∀ t : Fin grid1.N, win1_3.xsize (grid1.coords t) 1 = win1_1.xsize (grid1.coords t) 0
    ∧ win1_1.xsize (grid1.coords t) 1 = 2048 ∧ win1_3.xsize (grid1.coords t) 0 = 512 := by decide +kernel

/-- A row of the templates' buffer inside the array is the block's row, whatever fills the buffer below the array's end. -/
theorem fill_row_congr (t : Fin grid1.N) (d d' : S2048x2048.Idx → Elt F .f32)
    (B : (win1_1.xblock (grid1.coords t)).Idx → Elt F .f32) (r : Fin 2048)
    (hr : r.val < win1_1.xsize (grid1.coords t) 0) (f : Fin 2048) :
    win1_1.fill (grid1.coords t) d B (ix2 r f) = win1_1.fill (grid1.coords t) d' B (ix2 r f) := by
  have hm : win1_1.moved (grid1.coords t) (ix2 r f) = true :=
    (win1_1.moved_iff (grid1.coords t) (ix2 r f)).mpr fun a => by
      match a with
      | ⟨0, _⟩ => exact hr
      | ⟨1, _⟩ =>
        show f.val < win1_1.xsize (grid1.coords t) 1
        rw [(xsizes1 t).2.1]; exact f.isLt
  unfold Window.fill; rw [dif_pos hm, dif_pos hm]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d : S512x2048.Idx → Elt F .bf16, owns (c : Thread nD τ) (st1_0 t) fullShare ((dat1 V c).before 0 t d))
    ∗ (∃ d : S2048x2048.Idx → Elt F .f32, owns (c : Thread nD τ) (st1_1 t) fullShare ((dat1 V c).before 1 t d))
    ∗ (∃ d : S512x1.Idx → Elt F .f32, owns (c : Thread nD τ) (st1_2 t) fullShare ((dat1 V c).before 2 t d))
    ∗ (∃ d : S512x2048.Idx → Elt F .f32, owns (c : Thread nD τ) (st1_3 t) fullShare ((dat1 V c).before 3 t d)))

/-- and what it returns: the two whole inputs' buffers at their blocks; the templates' and the result's, whose blocks
    the transfers cut at the arrays' ends, stated on the part the transfers move. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d : S2048x2048.Idx → Elt F .f32, owns (c : Thread nD τ) (st1_1 t) fullShare
        (win1_1.fill (grid1.coords t) d (win1_1.cut (grid1.coords t) ((dat1 V c).after 1 t))))
    ∗ owns (c : Thread nD τ) (st1_2 t) fullShare ((dat1 V c).after 2 t)
    ∗ (∃ d : S512x2048.Idx → Elt F .f32, owns (c : Thread nD τ) (st1_3 t) fullShare
        (win1_3.fill (grid1.coords t) d (win1_3.cut (grid1.coords t) ((dat1 V c).after 3 t)))))

end Region1

/-! ## At the extended reals -/

section Region1Ideal

variable (V : (c : Dev nD) → (b : Ref sig .tc) → Buf (Elt Ideal) ((c : Thread nD τ).loc b))

/-- A logit's column reads its own template row only, and a column the write-back keeps is
    a row inside the templates' array: the columns written back do not see what fills the templates' buffer below
    the array's end. -/
theorem cut_pay_congr (t : Fin grid1.N) (X0 : Vec Ideal S512x2048 .bf16) (X2 : Vec Ideal S512x1 .f32)
    (d d' : S2048x2048.Idx → Elt Ideal .f32) (B : (win1_1.xblock (grid1.coords t)).Idx → Elt Ideal .f32) :
    win1_3.cut (grid1.coords t) (k1_pay1 (F := Ideal) X0 (win1_1.fill (grid1.coords t) d B) X2)
      = win1_3.cut (grid1.coords t) (k1_pay1 (F := Ideal) X0 (win1_1.fill (grid1.coords t) d' B) X2) := by
  funext j
  have h0 : (j 0).val < win1_3.xsize (grid1.coords t) 0 := (j 0).isLt
  have h1 : (j 1).val < win1_3.xsize (grid1.coords t) 1 := (j 1).isLt
  have h1' : (j 1).val < 2048 := Nat.lt_of_lt_of_le h1 (win1_3.xsize_le (grid1.coords t) 1)
  rw [(xsizes1 t).2.2] at h0
  have hj : win1_3.xinj (grid1.coords t) j = ix2 (⟨(j 0).val, h0⟩ : Fin 512) (⟨(j 1).val, h1'⟩ : Fin 2048) := by
    funext a
    match a with
    | ⟨0, _⟩ => rfl
    | ⟨1, _⟩ => rfl
  change k1_pay1 (F := Ideal) X0 (win1_1.fill (grid1.coords t) d B) X2 (win1_3.xinj (grid1.coords t) j)
    = k1_pay1 (F := Ideal) X0 (win1_1.fill (grid1.coords t) d' B) X2 (win1_3.xinj (grid1.coords t) j)
  rw [hj]
  exact Cert.KernelIdeal.Pay.payOut_congr_row X0 (win1_1.fill (grid1.coords t) d B) (win1_1.fill (grid1.coords t) d' B) X2
    ⟨(j 0).val, h0⟩ ⟨(j 1).val, h1'⟩
    (fun f => fill_row_congr t d d' B ⟨(j 1).val, h1'⟩ (by rw [← (xsizes1 t).1]; exact h1) f)

/-- The body at any point. The two whole inputs' buffers hold their blocks and the templates' its block above whatever
    `d1` the fetch left below the array's end (`before1_W`), so `sound_kernel1` applies; the invariant and the core's
    `owes` pass through unread. The templates' buffer is handed back as found: on the moved part it is the block, as
    the data's is. The result's holds the logits of the molecules against the buffer's rows, `d1`'s among them; the
    columns inside the array are those of the data's block (`cut_pay_congr`), which is all that is asked. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  have h1 : win1_1.cut (grid1.coords t) (tblk V c t) = iblk1 V c 1 t := by
    unfold tblk; exact win1_1.cut_fill _ _ _
  obtain ⟨X, hX, hXc⟩ : ∃ X : S512x2048.Idx → Elt Ideal .f32,
      X = k1_pay1 (F := Ideal) (iblk1 V c 0 t) (win1_1.fill (grid1.coords t) d1 (iblk1 V c 1 t)) (iblk1 V c 2 t)
        ∧ win1_3.cut (grid1.coords t) X = win1_3.cut (grid1.coords t) (oblk V c t) :=
    ⟨_, rfl, by
      unfold oblk tblk
      exact cut_pay_congr t (iblk1 V c 0 t) (iblk1 V c 2 t) d1 (fun _ => Scalar.ofBits (F := Ideal) .f32 0#32) (iblk1 V c 1 t)⟩
  iapply (sound_kernel1 (F := Ideal) c Set.univ (grid1.coords t) _ _ _ _ _ _ _ _
    (iblk1 V c 0 t) (win1_1.fill (grid1.coords t) d1 (iblk1 V c 1 t)) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; rw [h1]; iexact H1
  isplitl [H2]; · iexact H2
  · iexists X; rw [← hXc, win1_3.fill_cut, hX]; iexact H3

/-- The body obligation of the exact proof data, at every point. -/
theorem body_obligation1 (c : Dev nD) :
    BodyObligationLoose (dat1 (F := Ideal) V c) (defs₀ (F := Ideal)) Variants.none () Set.univ := fun t => by
  rw [bigSep_W1, bigSep_W1]
  exact sound_body1 V c t

end Region1Ideal

end Cert.KernelIdeal.Hand

end
-- ==== Proof.Spec.lean ====
/-
  The mathematics of the retrieval logits, free of any program.

  Six real-valued arrays: molecule fingerprints `x b f`, template fingerprints `y t f`, the two encoders' weights
  `wq a f`, `wk a f` and biases `cq a`, `ck a`. A query is `q b a = (∑ f, x b f * wq a f) + cq a` and a key is
  `k t a = (∑ f, y t f * wk a f) + ck a`; the logit of molecule `b` against template `t` is `β * ∑ a, q b a * k t a`.

  Because the molecules are few and the templates many, the same logit can be computed by pushing the contraction over
  `a` onto the query side once: `p b f = ∑ a, q b a * wk a f` (the query projected back to fingerprint space) and
  `o b = ∑ a, q b a * ck a` (its offset), after which the logit is `β * ((∑ f, p b f * y t f) + o b)`.

  The two agree whenever every entry is a real number: distributing `q b a` over the key's two summands and exchanging the
  sums over `a` and `f` are laws of the reals; on the extended reals they fail at the infinities, which is where the
  hypothesis is used.
-/
import Idealize.ShloMosaic.PureOps.Ideal
import Idealize.ShloMosaic.Lib.ValueIdx

noncomputable section

open scoped BigOperators

namespace Cert.Retrieval

variable {B T A P : Type} [Fintype B] [Fintype T] [Fintype A] [Fintype P]
variable (x : B → P → EReal) (y : T → P → EReal) (wq : A → P → EReal) (cq : A → EReal) (wk : A → P → EReal) (ck : A → EReal)

/-- The query of molecule `b` at association coordinate `a`. -/
def query (b : B) (a : A) : EReal := (∑ f : P, x b f * wq a f) + cq a

/-- The key of template `t` at association coordinate `a`. -/
def key (t : T) (a : A) : EReal := (∑ f : P, y t f * wk a f) + ck a

/-- The query projected back to fingerprint space through the key encoder's weights. -/
def projected (b : B) (f : P) : EReal := ∑ a : A, query x wq cq b a * wk a f

/-- The query's offset: its pairing with the key encoder's bias. -/
def offset (b : B) : EReal := ∑ a : A, query x wq cq b a * ck a

/-- The logit as the reassociated computation forms it. -/
def logitProjected (β : EReal) (b : B) (t : T) : EReal :=
  β * ((∑ f : P, projected x wq cq wk b f * y t f) + offset x wq cq ck b)

/-- The logit as the pairing of a query with a key. -/
def logitPaired (β : EReal) (b : B) (t : T) : EReal :=
  β * ∑ a : A, query x wq cq b a * key y wk ck t a

/-! ## The same over the six argument arrays, index by index -/

open Idealize.ShloMosaic Idealize.ShloMosaic.ValueIdx

/-- The scale `β = 1/8`, as the word both programs carry. -/
def beta : EReal := Ideal.ofBits .f32 0x3E000000#32

section Arrays

variable (a0 : (⟨2, ![512, 2048]⟩ : Shape).Idx → EReal) (a1 : (⟨2, ![50000, 2048]⟩ : Shape).Idx → EReal)
  (a2 : (⟨2, ![1024, 2048]⟩ : Shape).Idx → EReal) (a3 : (⟨1, ![1024]⟩ : Shape).Idx → EReal)
  (a4 : (⟨2, ![1024, 2048]⟩ : Shape).Idx → EReal) (a5 : (⟨1, ![1024]⟩ : Shape).Idx → EReal)

/-- The logits array `[512, 50000]` by the reassociated computation, of the six argument arrays (molecules, templates,
    query weights, query bias, key weights, key bias, in the programs' argument order). -/
def projectedArr : (⟨2, ![512, 50000]⟩ : Shape).Idx → EReal := fun j =>
  logitProjected (B := Fin 512) (T := Fin 50000) (A := Fin 1024) (P := Fin 2048)
    (fun b f => a0 (ix2 b f)) (fun t f => a1 (ix2 t f)) (fun a f => a2 (ix2 a f)) (fun a => a3 (ix1 a))
    (fun a f => a4 (ix2 a f)) (fun a => a5 (ix1 a)) beta (j 0) (j 1)

/-- The logits array by pairing queries with keys. -/
def pairedArr : (⟨2, ![512, 50000]⟩ : Shape).Idx → EReal := fun j =>
  logitPaired (B := Fin 512) (T := Fin 50000) (A := Fin 1024) (P := Fin 2048)
    (fun b f => a0 (ix2 b f)) (fun t f => a1 (ix2 t f)) (fun a f => a2 (ix2 a f)) (fun a => a3 (ix1 a))
    (fun a f => a4 (ix2 a f)) (fun a => a5 (ix1 a)) beta (j 0) (j 1)

end Arrays

end Cert.Retrieval

end
-- ==== Proof.Value0.lean ====
/-
  What the first kernel region leaves behind, and what the host hands it.

  The region runs at a single grid point, and each of its seven windows has a block as large as its array, placed at
  block (0, 0): a block read is the array itself, and the one write-back of a result overwrites every element of its
  array. So the first result array ends holding, at `(b, f)`, the body's first result at `(b, f)`, which is the
  projected query `p b f = ∑ a, q b a * wk a f` with `q b a = (∑ f, x b f * wq a f) + cq a`; the second ends holding,
  at `(b, 0)`, the offset `o b = ∑ a, q b a * ck a`; and the five input arrays are never written.

  In front of the region the host reshapes the two biases from `[1024]` to rows `[1, 1024]`: a reshape keeps the
  row-major order, so the row at `(0, a)` is the bias at `a`. No host operation writes the other four arguments the
  regions read.
-/
import proofs.«147248_j70643622085021_2_alg».proof.Proof.Data
import proofs.«147248_j70643622085021_2_alg».proof.Proof.Spec
import proofs.«147248_j70643622085021_2_alg».proof.Proof.Payloads
import proofs.«147248_j70643622085021_2_alg».proof.Proof.Gen.KernelIdeal.Regions
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's two results over named arrays -/

/-- The body's first result at `(b, f)` is the projected query, once its four blocks are read as the arrays
    `x`, `wq`, `cq`, `wk`. -/
theorem payProj (v0 : Vec Ideal S512x2048 .f32) (v2 : Vec Ideal S1024x2048 .f32) (v6 : Vec Ideal S1x1024 .f32)
    (v11 : Vec Ideal S1024x2048 .f32)
    (x : Fin 512 → Fin 2048 → EReal) (wq : Fin 1024 → Fin 2048 → EReal) (cq : Fin 1024 → EReal) (wk : Fin 1024 → Fin 2048 → EReal)
    (h0 : ∀ b f, v0 (ix2 b f) = x b f) (h2 : ∀ a f, v2 (ix2 a f) = wq a f) (h6 : ∀ a, v6 (ix2 (0 : Fin 1) a) = cq a)
    (h11 : ∀ a f, v11 (ix2 a f) = wk a f) (b : Fin 512) (f : Fin 2048) :
    k0_pay2 (F := Ideal) v0 v2 v6 v11 (ix2 b f) = Cert.Retrieval.projected x wq cq wk b f := by
  refine (Pay.pay2_apply v0 v2 v6 v11 b f).trans ?_
  unfold Cert.Retrieval.projected Cert.Retrieval.query
  refine Finset.sum_congr rfl fun a _ => ?_
  rw [Pay.pay1_apply v0 v2 v6 b a, h6 a, h11 a f]
  congr 2
  exact Finset.sum_congr rfl fun f' _ => by rw [h0 b f', h2 a f']

/-- The body's second result at `(b, 0)` is the offset, once its four blocks are read as the arrays
    `x`, `wq`, `cq`, `ck`. -/
theorem payOffs (v0 : Vec Ideal S512x2048 .f32) (v2 : Vec Ideal S1024x2048 .f32) (v6 : Vec Ideal S1x1024 .f32)
    (v16 : Vec Ideal S1x1024 .f32)
    (x : Fin 512 → Fin 2048 → EReal) (wq : Fin 1024 → Fin 2048 → EReal) (cq : Fin 1024 → EReal) (ck : Fin 1024 → EReal)
    (h0 : ∀ b f, v0 (ix2 b f) = x b f) (h2 : ∀ a f, v2 (ix2 a f) = wq a f) (h6 : ∀ a, v6 (ix2 (0 : Fin 1) a) = cq a)
    (h16 : ∀ a, v16 (ix2 (0 : Fin 1) a) = ck a) (b : Fin 512) :
    k0_pay3 (F := Ideal) v0 v2 v6 v16 (ix2 b (0 : Fin 1)) = Cert.Retrieval.offset x wq cq ck b := by
  refine (Pay.pay3_apply v0 v2 v6 v16 b).trans ?_
  unfold Cert.Retrieval.offset Cert.Retrieval.query
  refine Finset.sum_congr rfl fun a _ => ?_
  rw [Pay.pay1_apply v0 v2 v6 b a, h6 a, h16 a]
  congr 2
  exact Finset.sum_congr rfl fun f' _ => by rw [h0 b f', h2 a f']

/-! ## Region 0: every block is its whole array -/

section Region0

variable (V : (c : Dev nD) → (b : Ref sig .tc) → Buf (Elt Ideal) ((c : Thread nD τ).loc b)) (c : Dev nD)

/-- Every window of the one-point grid sits at block (0, 0). -/
theorem idx0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The molecules' block reads the molecules' array: element `(b, f)` of the block is element
    `(0 * 512 + b, 0 * 2048 + f)` of the array. -/
theorem read0_0 (t : Fin cfg0.N) (b : Fin 512) (f : Fin 2048) : iblk0 V c 0 t (ix2 b f) = V c main_arg0 (ix2 b f) := by
  obtain ⟨⟨e0, e1⟩, -⟩ := idx0 t
  show V c main_arg0 (((cfg0.win 0).blk t).view.emb (ix2 b f)) = V c main_arg0 (ix2 b f)
  congr 1
  funext a; apply Fin.ext
  match a with
  | ⟨0, _⟩ => show win0_0.index t (0 : Fin 2) * 512 + 1 * b.val = b.val; rw [e0]; omega
  | ⟨1, _⟩ => show win0_0.index t (1 : Fin 2) * 2048 + 1 * f.val = f.val; rw [e1]; omega

/-- The query weights' block reads their array. -/
theorem read0_1 (t : Fin cfg0.N) (a : Fin 1024) (f : Fin 2048) : iblk0 V c 1 t (ix2 a f) = V c main_arg2 (ix2 a f) := by
  obtain ⟨-, ⟨e0, e1⟩, -⟩ := idx0 t
  show V c main_arg2 (((cfg0.win 1).blk t).view.emb (ix2 a f)) = V c main_arg2 (ix2 a f)
  congr 1
  funext d; apply Fin.ext
  match d with
  | ⟨0, _⟩ => show win0_1.index t (0 : Fin 2) * 1024 + 1 * a.val = a.val; rw [e0]; omega
  | ⟨1, _⟩ => show win0_1.index t (1 : Fin 2) * 2048 + 1 * f.val = f.val; rw [e1]; omega

/-- The query bias's block, a row, reads its array. -/
theorem read0_2 (t : Fin cfg0.N) (a : Fin 1024) : iblk0 V c 2 t (ix2 (0 : Fin 1) a) = V c main_v0 (ix2 (0 : Fin 1) a) := by
  obtain ⟨-, -, ⟨e0, e1⟩, -⟩ := idx0 t
  show V c main_v0 (((cfg0.win 2).blk t).view.emb (ix2 (0 : Fin 1) a)) = V c main_v0 (ix2 (0 : Fin 1) a)
  congr 1
  funext d; apply Fin.ext
  match d with
  | ⟨0, _⟩ => show win0_2.index t (0 : Fin 2) * 1 + 1 * 0 = 0; rw [e0]
  | ⟨1, _⟩ => show win0_2.index t (1 : Fin 2) * 1024 + 1 * a.val = a.val; rw [e1]; omega

/-- The key weights' block reads their array. -/
theorem read0_3 (t : Fin cfg0.N) (a : Fin 1024) (f : Fin 2048) : iblk0 V c 3 t (ix2 a f) = V c main_arg4 (ix2 a f) := by
  obtain ⟨-, -, -, ⟨e0, e1⟩, -⟩ := idx0 t
  show V c main_arg4 (((cfg0.win 3).blk t).view.emb (ix2 a f)) = V c main_arg4 (ix2 a f)
  congr 1
  funext d; apply Fin.ext
  match d with
  | ⟨0, _⟩ => show win0_3.index t (0 : Fin 2) * 1024 + 1 * a.val = a.val; rw [e0]; omega
  | ⟨1, _⟩ => show win0_3.index t (1 : Fin 2) * 2048 + 1 * f.val = f.val; rw [e1]; omega

/-- The key bias's block, a row, reads its array. -/
theorem read0_4 (t : Fin cfg0.N) (a : Fin 1024) : iblk0 V c 4 t (ix2 (0 : Fin 1) a) = V c main_v1 (ix2 (0 : Fin 1) a) := by
  obtain ⟨-, -, -, -, ⟨e0, e1⟩, -⟩ := idx0 t
  show V c main_v1 (((cfg0.win 4).blk t).view.emb (ix2 (0 : Fin 1) a)) = V c main_v1 (ix2 (0 : Fin 1) a)
  congr 1
  funext d; apply Fin.ext
  match d with
  | ⟨0, _⟩ => show win0_4.index t (0 : Fin 2) * 1 + 1 * 0 = 0; rw [e0]
  | ⟨1, _⟩ => show win0_4.index t (1 : Fin 2) * 1024 + 1 * a.val = a.val; rw [e1]; omega

/-! ### The projected queries -/

/-- The projected queries over the region's entry contents, as an array. -/
abbrev projOf : S512x2048.Idx → EReal := fun j =>
  Cert.Retrieval.projected (fun (b : Fin 512) (f : Fin 2048) => V c main_arg0 (ix2 b f))
    (fun (a : Fin 1024) (f : Fin 2048) => V c main_arg2 (ix2 a f)) (fun (a : Fin 1024) => V c main_v0 (ix2 (0 : Fin 1) a))
    (fun (a : Fin 1024) (f : Fin 2048) => V c main_arg4 (ix2 a f)) (j 0) (j 1)

/-- An index of the first result array is in the point's block iff each coordinate is in the block's range. -/
theorem mem_blk5 (t : Fin cfg0.N) (i : S512x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v2_0).slice (win0_5.rect t)).set ↔ _
  rw [View.set_slice_whole, Rect.mem_set_unit]
  exact Iff.rfl

/-- What the point writes back to the first result array is its block of the projected queries. -/
theorem flushed5_eq (t : Fin cfg0.N) :
    (dat0 (F := Ideal) V c).flushed 5 t = ((cfg0.win 5).blk t).view.read (Elt Ideal) (projOf V c) := by
  show (cfg0.win 5).cut (grid0.coords t) ((dat0 V c).after 5 t) = _
  rw [after0_5]
  funext y
  obtain ⟨b, f, rfl⟩ : ∃ (b : Fin 512) (f : Fin 2048), y = ix2 b f := ⟨y 0, y 1, eq_ix2 y⟩
  have hemb : ((cfg0.win 5).blk t).view.emb (ix2 b f) = (ix2 b f : S512x2048.Idx) := by
    obtain ⟨-, -, -, -, -, ⟨e0, e1⟩, -⟩ := idx0 t
    funext a; apply Fin.ext
    match a with
    | ⟨0, _⟩ => show win0_5.index t (0 : Fin 2) * 512 + 1 * b.val = b.val; rw [e0]; omega
    | ⟨1, _⟩ => show win0_5.index t (1 : Fin 2) * 2048 + 1 * f.val = f.val; rw [e1]; omega
  show k0_pay2 (F := Ideal) (iblk0 V c 0 t) (iblk0 V c 1 t) (iblk0 V c 2 t) (iblk0 V c 3 t) (ix2 b f)
    = projOf V c (((cfg0.win 5).blk t).view.emb (ix2 b f))
  rw [hemb]
  exact payProj (iblk0 V c 0 t) (iblk0 V c 1 t) (iblk0 V c 2 t) (iblk0 V c 3 t)
    (fun (b : Fin 512) (f : Fin 2048) => V c main_arg0 (ix2 b f))
    (fun (a : Fin 1024) (f : Fin 2048) => V c main_arg2 (ix2 a f)) (fun (a : Fin 1024) => V c main_v0 (ix2 (0 : Fin 1) a))
    (fun (a : Fin 1024) (f : Fin 2048) => V c main_arg4 (ix2 a f))
    (read0_0 V c t) (read0_1 V c t) (read0_2 V c t) (read0_3 V c t) b f

/-- The one point's block covers the first result array. -/
theorem cover5 (i : S512x2048.Idx) :
    ∃ t : Fin cfg0.N, (cfg0.win 5).flush t = true ∧ i ∈ ((cfg0.win 5).blk t).view.set := by
  refine ⟨t0_0, flush0_5 t0_0, ?_⟩
  rw [mem_blk5]
  obtain ⟨-, -, -, -, -, ⟨e0, e1⟩, -⟩ := idx0 t0_0
  have h0 := idx2_lt0 i
  have h1 := idx2_lt1 i
  intro a
  match a with
  | ⟨0, _⟩ => show win0_5.index t0_0 (0 : Fin 2) * 512 ≤ (i 0).val ∧ (i 0).val < win0_5.index t0_0 (0 : Fin 2) * 512 + 512; rw [e0]; omega
  | ⟨1, _⟩ => show win0_5.index t0_0 (1 : Fin 2) * 2048 ≤ (i 1).val ∧ (i 1).val < win0_5.index t0_0 (1 : Fin 2) * 2048 + 2048; rw [e1]; omega

/-- THE FIRST RESULT ARRAY after the region: the projected queries. -/
theorem proj_eq : (dat0 (F := Ideal) V c).arrAt 5 cfg0.N = fun j : S512x2048.Idx =>
    Cert.Retrieval.projected (fun (b : Fin 512) (f : Fin 2048) => V c main_arg0 (ix2 b f))
      (fun (a : Fin 1024) (f : Fin 2048) => V c main_arg2 (ix2 a f)) (fun (a : Fin 1024) => V c main_v0 (ix2 (0 : Fin 1) a))
      (fun (a : Fin 1024) (f : Fin 2048) => V c main_arg4 (ix2 a f)) (j 0) (j 1) :=
  (dat0 V c).arrAt_eq_of_cover 5 (projOf V c) (fun t _ => flushed5_eq V c t) (cover5)

/-! ### The offsets -/

/-- The offsets over the region's entry contents, as an array of one column. -/
abbrev offsOf : S512x1.Idx → EReal := fun j =>
  Cert.Retrieval.offset (fun (b : Fin 512) (f : Fin 2048) => V c main_arg0 (ix2 b f))
    (fun (a : Fin 1024) (f : Fin 2048) => V c main_arg2 (ix2 a f)) (fun (a : Fin 1024) => V c main_v0 (ix2 (0 : Fin 1) a))
    (fun (a : Fin 1024) => V c main_v1 (ix2 (0 : Fin 1) a)) (j 0)

/-- An index of the second result array is in the point's block iff each coordinate is in the block's range. -/
theorem mem_blk6 (t : Fin cfg0.N) (i : S512x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v2_1).slice (win0_6.rect t)).set ↔ _
  rw [View.set_slice_whole, Rect.mem_set_unit]
  exact Iff.rfl

/-- What the point writes back to the second result array is its block of the offsets. -/
theorem flushed6_eq (t : Fin cfg0.N) :
    (dat0 (F := Ideal) V c).flushed 6 t = ((cfg0.win 6).blk t).view.read (Elt Ideal) (offsOf V c) := by
  show (cfg0.win 6).cut (grid0.coords t) ((dat0 V c).after 6 t) = _
  rw [after0_6]
  funext y
  obtain ⟨b, z, rfl⟩ : ∃ (b : Fin 512) (z : Fin 1), y = ix2 b z := ⟨y 0, y 1, eq_ix2 y⟩
  obtain rfl : z = 0 := Subsingleton.elim _ _
  have hemb : ((cfg0.win 6).blk t).view.emb (ix2 b (0 : Fin 1)) = (ix2 b (0 : Fin 1) : S512x1.Idx) := by
    obtain ⟨-, -, -, -, -, -, ⟨e0, e1⟩⟩ := idx0 t
    funext a; apply Fin.ext
    match a with
    | ⟨0, _⟩ => show win0_6.index t (0 : Fin 2) * 512 + 1 * b.val = b.val; rw [e0]; omega
    | ⟨1, _⟩ => show win0_6.index t (1 : Fin 2) * 1 + 1 * 0 = 0; rw [e1]
  show k0_pay3 (F := Ideal) (iblk0 V c 0 t) (iblk0 V c 1 t) (iblk0 V c 2 t) (iblk0 V c 4 t) (ix2 b (0 : Fin 1))
    = offsOf V c (((cfg0.win 6).blk t).view.emb (ix2 b (0 : Fin 1)))
  rw [hemb]
  exact payOffs (iblk0 V c 0 t) (iblk0 V c 1 t) (iblk0 V c 2 t) (iblk0 V c 4 t)
    (fun (b : Fin 512) (f : Fin 2048) => V c main_arg0 (ix2 b f))
    (fun (a : Fin 1024) (f : Fin 2048) => V c main_arg2 (ix2 a f)) (fun (a : Fin 1024) => V c main_v0 (ix2 (0 : Fin 1) a))
    (fun (a : Fin 1024) => V c main_v1 (ix2 (0 : Fin 1) a))
    (read0_0 V c t) (read0_1 V c t) (read0_2 V c t) (read0_4 V c t) b

/-- The one point's block covers the second result array. -/
theorem cover6 (i : S512x1.Idx) :
    ∃ t : Fin cfg0.N, (cfg0.win 6).flush t = true ∧ i ∈ ((cfg0.win 6).blk t).view.set := by
  refine ⟨t0_0, flush0_6 t0_0, ?_⟩
  rw [mem_blk6]
  obtain ⟨-, -, -, -, -, -, ⟨e0, e1⟩⟩ := idx0 t0_0
  have h0 := idx2_lt0 i
  have h1 := idx2_lt1 i
  intro a
  match a with
  | ⟨0, _⟩ => show win0_6.index t0_0 (0 : Fin 2) * 512 ≤ (i 0).val ∧ (i 0).val < win0_6.index t0_0 (0 : Fin 2) * 512 + 512; rw [e0]; omega
  | ⟨1, _⟩ => show win0_6.index t0_0 (1 : Fin 2) * 1 ≤ (i 1).val ∧ (i 1).val < win0_6.index t0_0 (1 : Fin 2) * 1 + 1; rw [e1]; omega

/-- THE SECOND RESULT ARRAY after the region: the offsets. -/
theorem offs_eq : (dat0 (F := Ideal) V c).arrAt 6 cfg0.N = fun j : S512x1.Idx =>
    Cert.Retrieval.offset (fun (b : Fin 512) (f : Fin 2048) => V c main_arg0 (ix2 b f))
      (fun (a : Fin 1024) (f : Fin 2048) => V c main_arg2 (ix2 a f)) (fun (a : Fin 1024) => V c main_v0 (ix2 (0 : Fin 1) a))
      (fun (a : Fin 1024) => V c main_v1 (ix2 (0 : Fin 1) a)) (j 0) :=
  (dat0 V c).arrAt_eq_of_cover 6 (offsOf V c) (fun t _ => flushed6_eq V c t) (cover6)

/-! ### The inputs -/

/-- An input array is never written: it leaves the region as it entered. -/
theorem in_eq0 (w : Fin cfg0.W) (hw : w.val < 5) :
    (dat0 (F := Ideal) V c).arrAt w cfg0.N = V c (Pipeline.arrRef spec0 w) := by
  have hin : (cfg0.win w).isOut = false := by
    obtain ⟨w, h7⟩ := w
    have hw' : w < 5 := hw
    interval_cases w <;> rfl
  exact ((dat0 V c).arrAt_in w hin _).trans (A_eq0 V c w)

end Region0

/-! ## The host stretch in front of region 0 -/

section Host

variable (m : (ℓ : Loc nD τ sig) → Buf (Elt Ideal) ℓ) (ρ : Dev nD → PrngReg) (c : Dev nD)

/-- The query bias as a row: the host's reshape keeps the row-major order, so `(0, a)` reads the bias at `a`. -/
theorem V1_v0 (a : Fin 1024) :
    V1 (F := Ideal) m ρ c main_v0 (ix2 (0 : Fin 1) a) = m ((c : Thread nD τ).loc main_arg3) (ix1 a) := by
  have e : (V1 (F := Ideal) m ρ c main_v0 : S1x1024.Idx → EReal)
      = shapeCast S1x1024 (m ((c : Thread nD τ).loc main_arg3) : S1024.Idx → EReal) shapeCasts_S1024_S1x1024 := by
    dsimp only [V1, W1, Gen.hostOps0]; after_results; rfl
  rw [e]
  exact shapeCast_a_1a_apply _ _ (0 : Fin 1) a

/-- The key bias as a row, likewise. -/
theorem V1_v1 (a : Fin 1024) :
    V1 (F := Ideal) m ρ c main_v1 (ix2 (0 : Fin 1) a) = m ((c : Thread nD τ).loc main_arg5) (ix1 a) := by
  have e : (V1 (F := Ideal) m ρ c main_v1 : S1x1024.Idx → EReal)
      = shapeCast S1x1024 (m ((c : Thread nD τ).loc main_arg5) : S1024.Idx → EReal) shapeCasts_S1024_S1x1024 := by
    dsimp only [V1, W1, Gen.hostOps0]; after_results; rfl
  rw [e]
  exact shapeCast_a_1a_apply _ _ (0 : Fin 1) a

/-- No host operation writes the molecules: the region finds them as launched. -/
theorem V1_arg0 : V1 (F := Ideal) m ρ c main_arg0 = m ((c : Thread nD τ).loc main_arg0) :=
  StableHlo.after_of_writes_sub hostOps0 _ hostOps0_writes (by decide)
/-- No host operation writes the templates. -/
theorem V1_arg1 : V1 (F := Ideal) m ρ c main_arg1 = m ((c : Thread nD τ).loc main_arg1) :=
  StableHlo.after_of_writes_sub hostOps0 _ hostOps0_writes (by decide)
/-- No host operation writes the query weights. -/
theorem V1_arg2 : V1 (F := Ideal) m ρ c main_arg2 = m ((c : Thread nD τ).loc main_arg2) :=
  StableHlo.after_of_writes_sub hostOps0 _ hostOps0_writes (by decide)
/-- No host operation writes the key weights. -/
theorem V1_arg4 : V1 (F := Ideal) m ρ c main_arg4 = m ((c : Thread nD τ).loc main_arg4) :=
  StableHlo.after_of_writes_sub hostOps0 _ hostOps0_writes (by decide)

end Host

end Cert.KernelIdeal.Hand

end
-- ==== Proof.Value1.lean ====
/-
  What the second region leaves in the logits array.

  The region runs at 25 points. At point `t` the result's buffer holds, for every molecule `b` and every row `j` of the
  templates' block, `β * ((∑ f, p b f * y (2048 t + j) f) + o b)`: the projected query paired with one template row, plus
  the query's offset. The write-back at `t` moves columns `2048 t … 2048 t + 2047` of that buffer onto the same columns of
  the array, cut at the array's end: the last block keeps 848 columns, since 50000 = 24 * 2048 + 848. A column of the
  buffer depends on its own template row only, so the columns that are moved never read a row past the array's end.

  Column `k` of the array lies in the block of point `k / 2048`, so the 25 write-backs cover the array and it ends holding
  `β * ((∑ f, p b f * y k f) + o b)` at every `(b, k)`. The three input arrays are never written.
-/
import proofs.«147248_j70643622085021_2_alg».proof.Proof.Data
import proofs.«147248_j70643622085021_2_alg».proof.Proof.Spec
import proofs.«147248_j70643622085021_2_alg».proof.Proof.Payloads
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The logits as one function of the three arrays the region reads -/

/-- The logits array `[512, 50000]` of projected queries `p`, templates `y` and offsets `o`: at `(b, k)` the scale times
    the pairing of `p b` with template row `k`, plus `o b`. -/
def logitsOf (p : S512x2048.Idx → EReal) (y : S50000x2048.Idx → EReal) (o : S512x1.Idx → EReal) : S512x50000.Idx → EReal :=
  fun j => Cert.Retrieval.beta * ((∑ f : Fin 2048, p (ix2 (j 0) f) * y (ix2 (j 1) f)) + o (ix2 (j 0) (0 : Fin 1)))

-- the buffers' contents when the region is entered
variable (V : (c : Dev nD) → (b : Ref sig .tc) → Buf (Elt Ideal) ((c : Thread nD τ).loc b)) (c : Dev nD)

/-- The logits of the projected queries, templates and offsets the region finds in its arrays. -/
def logits : S512x50000.Idx → EReal := logitsOf (V c main_v2_0) (V c main_arg1) (V c main_v2_1)

/-! ## Where the blocks sit -/

/-- Over the 25 points: the result's block at `t` is block `(0, t)` and the templates' block `(t, 0)`, the projected
    queries' and the offsets' block is `(0, 0)`; the result's block keeps all 512 rows and `min 2048 (50000 - 2048 t)`
    columns, the templates' block that many rows and all 2048 columns. -/
theorem layout : ∀ t : Fin cfg1.N,
    win1_3.index t 0 = 0 ∧ win1_3.index t 1 = t.val ∧ win1_1.index t 0 = t.val ∧ win1_1.index t 1 = 0
    ∧ win1_0.index t 0 = 0 ∧ win1_0.index t 1 = 0 ∧ win1_2.index t 0 = 0 ∧ win1_2.index t 1 = 0
    ∧ win1_3.xsize (grid1.coords t) 0 = 512 ∧ win1_3.xsize (grid1.coords t) 1 = min 2048 (50000 - 2048 * t.val)
    ∧ win1_1.xsize (grid1.coords t) 0 = min 2048 (50000 - 2048 * t.val) ∧ win1_1.xsize (grid1.coords t) 1 = 2048 :=
  (by decide +kernel : ∀ t : Fin grid1.N,
    win1_3.index t 0 = 0 ∧ win1_3.index t 1 = t.val ∧ win1_1.index t 0 = t.val ∧ win1_1.index t 1 = 0
    ∧ win1_0.index t 0 = 0 ∧ win1_0.index t 1 = 0 ∧ win1_2.index t 0 = 0 ∧ win1_2.index t 1 = 0
    ∧ win1_3.xsize (grid1.coords t) 0 = 512 ∧ win1_3.xsize (grid1.coords t) 1 = min 2048 (50000 - 2048 * t.val)
    ∧ win1_1.xsize (grid1.coords t) 0 = min 2048 (50000 - 2048 * t.val) ∧ win1_1.xsize (grid1.coords t) 1 = 2048)

/-- A block filled out past its cut reads, at an index inside the cut, what it was filled from. -/
theorem fill_inside {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-! ## The three blocks the body reads at a point, as entries of the arrays -/

/-- The projected queries' block is the whole array at every point. -/
theorem queries_block (t : Fin cfg1.N) (b : Fin 512) (f : Fin 2048) :
    (iblk1 V c 0 t : S512x2048.Idx → EReal) (ix2 b f) = (V c main_v2_0 : S512x2048.Idx → EReal) (ix2 b f) := by
  obtain ⟨-, -, -, -, e00, e01, -, -, -, -, -, -⟩ := layout t
  unfold iblk1
  show (V c main_v2_0 : S512x2048.Idx → EReal) (((cfg1.win 0).blk t).view.emb (ix2 b f)) = _
  refine congrArg (V c main_v2_0 : S512x2048.Idx → EReal) ?_
  funext a; apply Fin.ext
  match a with
  | ⟨0, _⟩ => show win1_0.index t 0 * 512 + 1 * b.val = b.val; omega
  | ⟨1, _⟩ => show win1_0.index t 1 * 2048 + 1 * f.val = f.val; omega

/-- So is the offsets' block. -/
theorem offsets_block (t : Fin cfg1.N) (b : Fin 512) :
    (iblk1 V c 2 t : S512x1.Idx → EReal) (ix2 b (0 : Fin 1)) = (V c main_v2_1 : S512x1.Idx → EReal) (ix2 b (0 : Fin 1)) := by
  obtain ⟨-, -, -, -, -, -, e20, e21, -, -, -, -⟩ := layout t
  unfold iblk1
  show (V c main_v2_1 : S512x1.Idx → EReal) (((cfg1.win 2).blk t).view.emb (ix2 b (0 : Fin 1))) = _
  refine congrArg (V c main_v2_1 : S512x1.Idx → EReal) ?_
  funext a; apply Fin.ext
  match a with
  | ⟨0, _⟩ => show win1_2.index t 0 * 512 + 1 * b.val = b.val; omega
  | ⟨1, _⟩ => show win1_2.index t 1 * 1 + 1 * 0 = 0; omega

/-- Row `j` of the templates' block at point `t`, when it is one of the rows inside the array, is row `2048 t + j` of the
    templates. -/
theorem templates_block_row (t : Fin cfg1.N) (j : Fin 2048) (f : Fin 2048) (k : Fin 50000)
    (hj : j.val < min 2048 (50000 - 2048 * t.val)) (hk : k.val = 2048 * t.val + j.val) :
    tblk V c t (ix2 j f) = (V c main_arg1 : S50000x2048.Idx → EReal) (ix2 k f) := by
  obtain ⟨-, -, e10, e11, -, -, -, -, -, -, x10, x11⟩ := layout t
  have hlt : ∀ a, ((ix2 j f : S2048x2048.Idx) a).val < win1_1.xsize (grid1.coords t) a := fun a =>
    match a with
    | ⟨0, _⟩ => (show j.val < win1_1.xsize (grid1.coords t) 0 by rw [x10]; exact hj)
    | ⟨1, _⟩ => (show f.val < win1_1.xsize (grid1.coords t) 1 by rw [x11]; exact f.isLt)
  unfold tblk
  rw [fill_inside win1_1 (grid1.coords t) _ _ (ix2 j f) hlt]
  unfold iblk1
  show (V c main_arg1 : S50000x2048.Idx → EReal) (((cfg1.win 1).blk t).view.emb _) = _
  refine congrArg (V c main_arg1 : S50000x2048.Idx → EReal) ?_
  funext a; apply Fin.ext
  match a with
  | ⟨0, _⟩ => show win1_1.index t 0 * 2048 + 1 * j.val = k.val; omega
  | ⟨1, _⟩ => show win1_1.index t 1 * 2048 + 1 * f.val = f.val; omega

/-! ## What a point writes back -/

/-- The body's arithmetic at molecule `b` and row `j` of its block is the logit of `b` against template `k`, once the three
    buffers agree with the arrays on what that entry reads: row `b` of the projected queries, row `j` of the block against
    row `k` of the templates, and the offset of `b`. -/
theorem logit_at_point (v0 : Vec Ideal S512x2048 .bf16) (v2 : Vec Ideal S2048x2048 .f32) (v6 : Vec Ideal S512x1 .f32)
    (p : S512x2048.Idx → EReal) (y : S50000x2048.Idx → EReal) (o : S512x1.Idx → EReal)
    (b : Fin 512) (j : Fin 2048) (k : Fin 50000)
    (h0 : ∀ f : Fin 2048, v0 (ix2 b f) = p (ix2 b f))
    (h2 : ∀ f : Fin 2048, v2 (ix2 j f) = y (ix2 k f))
    (h6 : v6 (ix2 b (0 : Fin 1)) = o (ix2 b (0 : Fin 1))) :
    k1_pay1 (F := Ideal) v0 v2 v6 (ix2 b j) = logitsOf p y o (ix2 b k) := by
  rw [Pay.payOut_apply]
  unfold logitsOf
  show _ = Cert.Retrieval.beta * ((∑ f : Fin 2048, p (ix2 b f) * y (ix2 k f)) + o (ix2 b (0 : Fin 1)))
  rw [h6, Finset.sum_congr rfl fun f _ => by rw [h0 f, h2 f]]
  rfl

/-- What point `t` writes back is its block of the logits: entry `(b, j)` of the cut buffer is the logit of `b` against
    template `2048 t + j`, and that is where the block's entry `(b, j)` sits in the array. -/
theorem flushed_eq (t : Fin cfg1.N) :
    (dat1 (F := Ideal) V c).flushed 3 t = ((cfg1.win 3).blk t).view.read (Elt Ideal) (logits V c) := by
  show (cfg1.win 3).cut (grid1.coords t) ((dat1 (F := Ideal) V c).after 3 t) = _
  rw [after1_3]
  obtain ⟨e30, e31, -, -, -, -, -, -, x30, x31, -, -⟩ := layout t
  funext y
  have ht : t.val < 25 := by have := t.isLt; have hN : cfg1.N = 25 := N_1; omega
  have hy0 : (y 0).val < 512 := x30 ▸ (y 0).isLt
  have hy1 : (y 1).val < min 2048 (50000 - 2048 * t.val) := x31 ▸ (y 1).isLt
  obtain ⟨b, hb⟩ : ∃ b : Fin 512, b.val = (y 0).val := ⟨⟨_, hy0⟩, rfl⟩
  obtain ⟨j, hj⟩ : ∃ j : Fin 2048, j.val = (y 1).val := ⟨⟨(y 1).val, by omega⟩, rfl⟩
  obtain ⟨k, hk⟩ : ∃ k : Fin 50000, k.val = 2048 * t.val + (y 1).val := ⟨⟨2048 * t.val + (y 1).val, by omega⟩, rfl⟩
  have hL : win1_3.xinj (grid1.coords t) y = (ix2 b j : S512x2048.Idx) := by
    funext a; apply Fin.ext
    match a with
    | ⟨0, _⟩ => exact hb.symm
    | ⟨1, _⟩ => exact hj.symm
  have hR : ((cfg1.win 3).blk t).view.emb y = (ix2 b k : S512x50000.Idx) := by
    funext a; apply Fin.ext
    match a with
    | ⟨0, _⟩ => show win1_3.index t 0 * 512 + 1 * (y 0).val = b.val; omega
    | ⟨1, _⟩ => show win1_3.index t 1 * 2048 + 1 * (y 1).val = k.val; omega
  show oblk V c t (win1_3.xinj (grid1.coords t) y) = logits V c (((cfg1.win 3).blk t).view.emb y)
  rw [hL, hR]
  unfold oblk logits
  exact logit_at_point _ _ _ _ _ _ b j k (fun f => queries_block V c t b f)
    (fun f => templates_block_row V c t j f k (by omega) (by omega)) (offsets_block V c t b)

/-! ## The write-backs cover the array -/

/-- An entry of the array is in point `t`'s block iff each coordinate is in the block's range on its axis, the range's
    length the cut one. -/
theorem mem_blk (t : Fin cfg1.N) (i : S512x50000.Idx) :
    i ∈ ((cfg1.win 3).blk t).view.set ↔ ∀ a : Fin 2, win1_3.index t a * S512x2048.size a ≤ (i a).val
      ∧ (i a).val < win1_3.index t a * S512x2048.size a + win1_3.xsize (grid1.coords t) a := by
  show i ∈ ((View.whole main_v3).slice (win1_3.rect t)).set ↔ _
  rw [View.set_slice_whole, Rect.mem_set_unit]
  exact Iff.rfl

/-- Column `k` lies in the block of point `k / 2048`: below 50000 that point is below 25, and the block's columns
    `2048 (k / 2048) … ` reach `k` also when the block is the cut last one. -/
theorem covered (i : S512x50000.Idx) :
    ∃ t : Fin cfg1.N, (cfg1.win 3).flush t = true ∧ i ∈ ((cfg1.win 3).blk t).view.set := by
  have hN : cfg1.N = 25 := N_1
  have h0 : (i 0).val < 512 := idx2_lt0 i
  have h1 : (i 1).val < 50000 := idx2_lt1 i
  obtain ⟨t, ht⟩ : ∃ t : Fin cfg1.N, t.val = (i 1).val / 2048 := ⟨⟨(i 1).val / 2048, by omega⟩, rfl⟩
  obtain ⟨e30, e31, -, -, -, -, -, -, x30, x31, -, -⟩ := layout t
  refine ⟨t, flush1_3 t, ?_⟩
  rw [mem_blk]
  intro a
  match a with
  | ⟨0, _⟩ =>
    show win1_3.index t 0 * 512 ≤ (i 0).val ∧ (i 0).val < win1_3.index t 0 * 512 + win1_3.xsize (grid1.coords t) 0
    rw [e30, x30]; omega
  | ⟨1, _⟩ =>
    show win1_3.index t 1 * 2048 ≤ (i 1).val ∧ (i 1).val < win1_3.index t 1 * 2048 + win1_3.xsize (grid1.coords t) 1
    rw [e31, x31]; omega

/-! ## The arrays after the region -/

/-- The logits array ends holding the logits of what the region found in its three input arrays. -/
theorem out_eq : (dat1 (F := Ideal) V c).arrAt 3 cfg1.N = logits V c :=
  (dat1 (F := Ideal) V c).arrAt_eq_of_cover 3 (logits V c) (fun t _ => flushed_eq V c t) (covered)

/-- An input array is never written: it ends holding what the region found. -/
theorem in_eq1 (w : Fin cfg1.W) (hw : w.val < 3) :
    (dat1 (F := Ideal) V c).arrAt w cfg1.N = V c (Pipeline.arrRef spec1 w) :=
  ((dat1 (F := Ideal) V c).arrAt_in w
    ((by decide : ∀ w : Fin 4, w.val < 3 → (win1 w).isOut = false) w hw) _).trans (A_eq1 V c w)

end Cert.KernelIdeal.Hand

end
-- ==== Proof.KernelValue.lean ====
/-
  The logits buffer at the end of the idealized program's run is the projected-logits array of the six launch arrays.

  Region 1 leaves `β * ((∑ f, p b f * y t f) + o b)` of what it found in the projected queries' buffer `p`, the
  templates `y` and the offsets' buffer `o`. Region 0 never touches the templates, so `y` is the launch array; and it
  left in `p` and `o` the projected queries and offsets of what IT found — the molecules and the two weight matrices,
  untouched by the reshapes, and the two biases as rows, which read at `(0, a)` the launch bias at `a`.
-/
import proofs.«147248_j70643622085021_2_alg».proof.Proof.Value0
import proofs.«147248_j70643622085021_2_alg».proof.Proof.Value1

noncomputable section

namespace Cert.KernelIdeal.Hand

open Cert.KernelIdeal
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- Region 1 finds the templates as launched. -/
theorem V2_templates : V2 (F := Ideal) m ρ c main_arg1 = m ((c : Thread nD τ).loc main_arg1) :=
  (W2_of_ne m ρ c main_arg1 (by decide)).trans (V1_arg1 m ρ c)

/-- Region 1 finds, in the first result of region 0, the projected queries of the launch arrays. -/
theorem V2_projected : V2 (F := Ideal) m ρ c main_v2_0 = fun j : S512x2048.Idx =>
    Cert.Retrieval.projected (fun (b : Fin 512) (f : Fin 2048) => m ((c : Thread nD τ).loc main_arg0) (ix2 b f))
      (fun (a : Fin 1024) (f : Fin 2048) => m ((c : Thread nD τ).loc main_arg2) (ix2 a f))
      (fun (a : Fin 1024) => m ((c : Thread nD τ).loc main_arg3) (ix1 a))
      (fun (a : Fin 1024) (f : Fin 2048) => m ((c : Thread nD τ).loc main_arg4) (ix2 a f)) (j 0) (j 1) := by
  refine ((W2_arr m ρ c 5).trans (proj_eq (V1 m ρ) c)).trans ?_
  simp only [V1_arg0 m ρ c, V1_arg2 m ρ c, V1_arg4 m ρ c, V1_v0 m ρ c]

/-- And in the second, their offsets. -/
theorem V2_offset : V2 (F := Ideal) m ρ c main_v2_1 = fun j : S512x1.Idx =>
    Cert.Retrieval.offset (fun (b : Fin 512) (f : Fin 2048) => m ((c : Thread nD τ).loc main_arg0) (ix2 b f))
      (fun (a : Fin 1024) (f : Fin 2048) => m ((c : Thread nD τ).loc main_arg2) (ix2 a f))
      (fun (a : Fin 1024) => m ((c : Thread nD τ).loc main_arg3) (ix1 a))
      (fun (a : Fin 1024) => m ((c : Thread nD τ).loc main_arg5) (ix1 a)) (j 0) := by
  refine ((W2_arr m ρ c 6).trans (offs_eq (V1 m ρ) c)).trans ?_
  simp only [V1_arg0 m ρ c, V1_arg2 m ρ c, V1_v0 m ρ c, V1_v1 m ρ c]

/-- The logits buffer at the end, as one function of the six launch arrays. -/
theorem kernel_value : W3 (F := Ideal) m ρ c (Proc.devRef .tc main_v3)
    = Cert.Retrieval.projectedArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W3_arr m ρ c 3).trans ((out_eq (V2 m ρ) c).trans ?_)
  unfold logits
  rw [V2_templates m ρ c, V2_projected m ρ c, V2_offset m ρ c]
  rfl

end Cert.KernelIdeal.Hand

end
-- ==== Proof.RefValue.lean ====
/-
  The reference computes the paired logits.

  Read one entry `(b, t)` of the reference's result. It is the scale `β` times a contraction over the 1024 association
  coordinates `a` of two arrays. The left one, at `(b, a)`, is the contraction over the 2048 fingerprint coordinates `f`
  of the molecules `x b f` with the transposed query weights, which at `(f, a)` hold `wq a f`, plus the query bias
  `cq a` copied along every row: the query `q b a`. The right one, at `(t, a)`, is in the same way the contraction of
  the templates `y t f` with `wk a f`, plus `ck a`: the key `k t a`. So the entry is `β * ∑ a, q b a * k t a`, which is
  the specification's paired logit. Nothing but the shape of the indices has to be matched: every sum and product on the
  reference's side already stands in the order the specification writes it.
-/
import proofs.«147248_j70643622085021_2_alg».proof.Proof.Gen.ReferenceIdeal.Read
import proofs.«147248_j70643622085021_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (a0 : FVec Ideal S512x2048 .f32) (a1 : FVec Ideal S50000x2048 .f32) (a2 a4 : FVec Ideal S1024x2048 .f32)
  (a3 a5 : FVec Ideal S1024 .f32)

/-- The biased product of the molecules with the query weights, at `(b, a)`, is the query `q b a`: the contraction
    meets the transposed weights at `(f, a)`, where they hold `wq a f`, and the bias row is the same on every row `b`. -/
theorem query_at (b : Fin 512) (a : Fin 1024) :
    val_main_v4 (F := Ideal) a0 a2 a3 (ix2 b a)
      = Cert.Retrieval.query (fun b f => a0 (ix2 b f)) (fun a f => a2 (ix2 a f)) (fun a => a3 (ix1 a)) b a := by
  have el : ∀ k : Fin 2048, lidx_main_v1 (ix2 b a) k = ix2 b k := fun k =>
    funext fun d => Fin.ext (by match d with | ⟨0, _⟩ => rfl | ⟨1, _⟩ => rfl)
  have er : ∀ k : Fin 2048, idx_main_v0 (ridx_main_v1 (ix2 b a) k) = ix2 a k := fun k =>
    funext fun d => Fin.ext (by match d with | ⟨0, _⟩ => rfl | ⟨1, _⟩ => rfl)
  have eb : idx_main_v2 (idx_main_v3 (ix2 b a)) = ix1 a :=
    funext fun d => Fin.ext (by match d with | ⟨0, _⟩ => rfl)
  rw [val_main_v4_apply, val_main_v1_apply, val_main_v3_apply, val_main_v2_apply, eb]
  simp only [val_main_v0_apply, el, er, Ideal.addf_def]
  rfl

/-- The biased product of the templates with the key weights, at `(t, a)`, is the key `k t a`. -/
theorem key_at (t : Fin 50000) (a : Fin 1024) :
    val_main_v9 (F := Ideal) a1 a4 a5 (ix2 t a)
      = Cert.Retrieval.key (fun t f => a1 (ix2 t f)) (fun a f => a4 (ix2 a f)) (fun a => a5 (ix1 a)) t a := by
  have el : ∀ k : Fin 2048, lidx_main_v6 (ix2 t a) k = ix2 t k := fun k =>
    funext fun d => Fin.ext (by match d with | ⟨0, _⟩ => rfl | ⟨1, _⟩ => rfl)
  have er : ∀ k : Fin 2048, idx_main_v5 (ridx_main_v6 (ix2 t a) k) = ix2 a k := fun k =>
    funext fun d => Fin.ext (by match d with | ⟨0, _⟩ => rfl | ⟨1, _⟩ => rfl)
  have eb : idx_main_v7 (idx_main_v8 (ix2 t a)) = ix1 a :=
    funext fun d => Fin.ext (by match d with | ⟨0, _⟩ => rfl)
  rw [val_main_v9_apply, val_main_v6_apply, val_main_v8_apply, val_main_v7_apply, eb]
  simp only [val_main_v5_apply, el, er, Ideal.addf_def]
  rfl

/-- The reference's result, as one term of its six argument arrays, is the array of paired logits: entry `(b, t)` is
    `β` times the contraction over `a` of the query `q b a` with the key `k t a`. -/
theorem result_eq :
    mulf (broadcastInDim S512x50000 ![] bcast_S_S512x50000 (constant (F := Ideal) S_ .f32 0x3E000000#32))
      (Host.dotGeneral (F := Ideal) dot_S512x1024_S50000x1024_S512x50000_1_1_0_0_n_n none
        (addf (Host.dotGeneral (F := Ideal) dot_S512x2048_S2048x1024_S512x1024_1_0_0_1_n_n none a0
            (transpose S2048x1024 [1, 0] a2 transposes_S1024x2048_S2048x1024_1_0))
          (broadcastInDim S512x1024 ![0, 1] bcast_S1x1024_S512x1024_0_1 (broadcastInDim S1x1024 ![1] bcast_S1024_S1x1024_1 a3)))
        (addf (Host.dotGeneral (F := Ideal) dot_S50000x2048_S2048x1024_S50000x1024_1_0_0_1_n_n none a1
            (transpose S2048x1024 [1, 0] a4 transposes_S1024x2048_S2048x1024_1_0))
          (broadcastInDim S50000x1024 ![0, 1] bcast_S1x1024_S50000x1024_0_1 (broadcastInDim S1x1024 ![1] bcast_S1024_S1x1024_1 a5))))
      = Cert.Retrieval.pairedArr a0 a1 a2 a3 a4 a5 := by
  refine (val_main_v12_eq (F := Ideal) a0 a1 a2 a3 a4 a5).trans ?_
  funext j
  obtain ⟨b, t, rfl⟩ : ∃ (b : Fin 512) (t : Fin 50000), j = ix2 b t := ⟨j 0, j 1, eq_ix2 j⟩
  have el : ∀ k : Fin 1024, lidx_main_v10 (ix2 b t) k = ix2 b k := fun k =>
    funext fun d => Fin.ext (by match d with | ⟨0, _⟩ => rfl | ⟨1, _⟩ => rfl)
  have er : ∀ k : Fin 1024, ridx_main_v10 (ix2 b t) k = ix2 t k := fun k =>
    funext fun d => Fin.ext (by match d with | ⟨0, _⟩ => rfl | ⟨1, _⟩ => rfl)
  rw [val_main_v12_apply, val_main_v11_apply, val_main_cst_apply, val_main_v10_apply]
  simp only [el, er, query_at, key_at, Ideal.mulf_def, Ideal.ofBits_def]
  rfl

end Cert.ReferenceIdeal.RefValue

end
-- ==== Proof.Reassoc.lean ====
/-
  Why the reassociated logit is the paired logit.

  Fix a molecule and a template and write Q a for the query, W a f for the key encoder's weights, C a for its bias and
  Y f for the template's fingerprint. The paired logit contracts the query against the key,
      ∑ a, Q a * ((∑ f, Y f * W a f) + C a),
  and the reassociated one first contracts the query against the weights and the bias,
      (∑ f, (∑ a, Q a * W a f) * Y f) + ∑ a, Q a * C a.
  Distributing Q a over the key's two summands splits the first expression into a double sum and a single sum; the single
  sums already agree, and the double sums differ only in the order of summation and of the factors. Each of these steps is
  a law of the real numbers. On the extended reals distributivity fails when an infinity meets a summand of the other
  sign, so the statement is made for entries that are real, and the proof transports the real identity along the
  inclusion of the reals, which preserves products and finite sums.
-/
import proofs.«147248_j70643622085021_2_alg».proof.Proof.Spec

noncomputable section

open scoped BigOperators

namespace Cert.Retrieval

namespace Reassoc

/-- The inclusion of the reals in the extended reals carries a finite sum to the sum of the images: it carries zero to
    zero and a sum of two reals to the sum of their images, and a finite sum is built up by adding one term at a time. -/
theorem coe_finset_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The identity in the reals. The double sum `∑ f, (∑ a, Q a * W a f) * Y f` becomes `∑ a, Q a * ∑ f, Y f * W a f` by
    moving `Y f` inside the inner sum, exchanging the two sums, and moving `Q a` back out; then `Q a` is distributed over
    the two summands of the key. -/
theorem real_reassoc {A P : Type} [Fintype A] [Fintype P] (Q : A → ℝ) (W : A → P → ℝ) (C : A → ℝ) (Y : P → ℝ) :
    (∑ f, (∑ a, Q a * W a f) * Y f) + ∑ a, Q a * C a = ∑ a, Q a * ((∑ f, Y f * W a f) + C a) := by
  have h : ∑ f, (∑ a, Q a * W a f) * Y f = ∑ a, Q a * ∑ f, Y f * W a f := by
    simp only [Finset.sum_mul, Finset.mul_sum]
    rw [Finset.sum_comm]
    refine Finset.sum_congr rfl (fun a _ => Finset.sum_congr rfl (fun f _ => ?_))
    ring
  rw [h, ← Finset.sum_add_distrib]
  refine Finset.sum_congr rfl (fun a _ => ?_)
  ring

end Reassoc

open Reassoc (coe_finset_sum real_reassoc)

variable {B T A P : Type} [Fintype B] [Fintype T] [Fintype A] [Fintype P]
variable (x : B → P → EReal) (y : T → P → EReal) (wq : A → P → EReal) (cq : A → EReal) (wk : A → P → EReal) (ck : A → EReal)

/-- When all six arrays have real entries the two logits agree, whatever the scale `β` is: the two bracketed sums are the
    images of the two sides of `real_reassoc`. -/
theorem logitProjected_eq_logitPaired (β : EReal)
    (hx : ∀ b f, ∃ r : ℝ, x b f = (r : EReal)) (hy : ∀ t f, ∃ r : ℝ, y t f = (r : EReal))
    (hwq : ∀ a f, ∃ r : ℝ, wq a f = (r : EReal)) (hcq : ∀ a, ∃ r : ℝ, cq a = (r : EReal))
    (hwk : ∀ a f, ∃ r : ℝ, wk a f = (r : EReal)) (hck : ∀ a, ∃ r : ℝ, ck a = (r : EReal))
    (b : B) (t : T) : logitProjected x y wq cq wk ck β b t = logitPaired x y wq cq wk ck β b t := by
  choose X hX using hx
  choose Y hY using hy
  choose Wq hWq using hwq
  choose Cq hCq using hcq
  choose Wk hWk using hwk
  choose Ck hCk using hck
  -- the query of a real molecule under a real encoder is a real number
  obtain ⟨Q, hq⟩ : ∃ Q : A → ℝ, ∀ a, query x wq cq b a = (Q a : EReal) := by
    refine ⟨fun a => (∑ f, X b f * Wq a f) + Cq a, fun a => ?_⟩
    show query x wq cq b a = (((∑ f, X b f * Wq a f) + Cq a : ℝ) : EReal)
    unfold query
    rw [EReal.coe_add, coe_finset_sum, hCq]
    congr 1
    refine Finset.sum_congr rfl (fun f _ => ?_)
    rw [hX, hWq, EReal.coe_mul]
  -- the reassociated bracket is the image of the left side of the real identity
  have hl : (∑ f, projected x wq cq wk b f * y t f) + offset x wq cq ck b
      = (((∑ f, (∑ a, Q a * Wk a f) * Y t f) + ∑ a, Q a * Ck a : ℝ) : EReal) := by
    unfold projected offset
    rw [EReal.coe_add, coe_finset_sum, coe_finset_sum]
    congr 1
    · refine Finset.sum_congr rfl (fun f _ => ?_)
      rw [EReal.coe_mul, coe_finset_sum, hY]
      congr 1
      refine Finset.sum_congr rfl (fun a _ => ?_)
      rw [hq, hWk, EReal.coe_mul]
    · refine Finset.sum_congr rfl (fun a _ => ?_)
      rw [hq, hCk, EReal.coe_mul]
  -- the paired sum is the image of its right side
  have hr : ∑ a, query x wq cq b a * key y wk ck t a
      = ((∑ a, Q a * ((∑ f, Y t f * Wk a f) + Ck a) : ℝ) : EReal) := by
    rw [coe_finset_sum]
    refine Finset.sum_congr rfl (fun a _ => ?_)
    unfold key
    rw [hq, EReal.coe_mul, EReal.coe_add, coe_finset_sum, hCk]
    congr 2
    refine Finset.sum_congr rfl (fun f _ => ?_)
    rw [hY, hWk, EReal.coe_mul]
  unfold logitProjected logitPaired
  rw [hl, hr, real_reassoc]

/-! ## The same for the six argument arrays -/

open Idealize.ShloMosaic Idealize.ShloMosaic.ValueIdx

/-- The two logits arrays agree at every index once the six argument arrays have real entries. -/
theorem projectedArr_eq_pairedArr
    (a0 : (⟨2, ![512, 2048]⟩ : Shape).Idx → EReal) (a1 : (⟨2, ![50000, 2048]⟩ : Shape).Idx → EReal)
    (a2 : (⟨2, ![1024, 2048]⟩ : Shape).Idx → EReal) (a3 : (⟨1, ![1024]⟩ : Shape).Idx → EReal)
    (a4 : (⟨2, ![1024, 2048]⟩ : Shape).Idx → EReal) (a5 : (⟨1, ![1024]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) :
    projectedArr a0 a1 a2 a3 a4 a5 = pairedArr a0 a1 a2 a3 a4 a5 := by
  funext j
  unfold projectedArr pairedArr
  exact logitProjected_eq_logitPaired _ _ _ _ _ _ beta (fun _ _ => h0 _) (fun _ _ => h1 _) (fun _ _ => h2 _)
    (fun _ => h3 _) (fun _ _ => h4 _) (fun _ => h5 _) (j 0) (j 1)

end Cert.Retrieval

end
-- ==== Proof.Finite.lean ====
/-
  From the precondition to "every entry is a real number".

  The precondition says of each of the six argument arrays that every entry `x` has `|x| < +∞`, and takes the
  conjunction of the six statements. On the extended reals `|x| = max x (-x)`. At `x = ⊤` this is `⊤`, and at `x = ⊥`
  it is `-⊥ = ⊤` again, so `|x| < ⊤` excludes both infinities; every other extended real is a real number.
-/
import proofs.«147248_j70643622085021_2_alg».proof.Defs
import Idealize.ShloMosaic.Lib.ReduceAll
import Idealize.ShloMosaic.Lib.ValueIdx

noncomputable section

namespace Cert.Retrieval

open Idealize.ShloMosaic Idealize.ShloMosaic.ValueIdx Idealize.SL.Sem

/-- The word `0x7F800000` (exponent field all ones, significand field zero, sign clear) denotes `+∞`. -/
theorem ofBits_inf : Ideal.ofBits .f32 0x7F800000#32 = (⊤ : EReal) := by
  simp [Ideal.ofBits, Ideal.ieee]

/-- An extended real whose absolute value lies below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The precondition's test on one entry, read back: `|x| < 0x7F800000` came out true, so `x` is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  refine real_of_abs_lt_top x ?_
  have h' : Ideal.cmp .olt (max x (-x)) (Ideal.ofBits .f32 0x7F800000#32) = 1#1 := h
  rw [ofBits_inf] at h'
  unfold Ideal.cmp at h'
  by_contra hn
  simp [hn] at h'

/-- The result of a reduction over every axis has one index. -/
instance subsingleton_scalarIdx : Subsingleton Cert.Pre_finite_inputs.S_.Idx := ⟨fun a b => funext fun d => d.elim0⟩

/-- One array's conjunct of the precondition, read back: the `and` over all entries of the test `|x| < +∞` is true, so
    every entry of the array is a real number. -/
theorem real_of_all {s : Shape} {axes : List (Fin s.rank)} {dims : Fin Cert.Pre_finite_inputs.S_.rank → Fin s.rank}
    (x : FVec Ideal s .f32) (hb : Cert.Pre_finite_inputs.S_.BroadcastsInDim s dims)
    (hr : s.ReducesTo axes Cert.Pre_finite_inputs.S_) (hu : 0 < Cert.Pre_finite_inputs.S_.numel)
    (e : Host.reduce IntOp.andi
        (cmpf .olt (Host.absf x)
          (broadcastInDim s dims hb (constant (F := Ideal) Cert.Pre_finite_inputs.S_ .f32 0x7F800000#32)))
        (constantI Cert.Pre_finite_inputs.S_ 1 1#1) hr hu ix0 = 1#1)
    (i : s.Idx) : ∃ r : ℝ, x i = (r : EReal) :=
  real_of_test (x i) (Host.reduce_andi_all _ _ hr hu ix0 e i)

/-- The precondition, as a statement about the six arrays: all six are arrays of real numbers. -/
theorem real_of_fn [Cert.Pre_finite_inputs.Facts]
    (a0 : FVec Ideal Cert.Pre_finite_inputs.S512x2048 .f32) (a1 : FVec Ideal Cert.Pre_finite_inputs.S50000x2048 .f32)
    (a2 : FVec Ideal Cert.Pre_finite_inputs.S1024x2048 .f32) (a3 : FVec Ideal Cert.Pre_finite_inputs.S1024 .f32)
    (a4 : FVec Ideal Cert.Pre_finite_inputs.S1024x2048 .f32) (a5 : FVec Ideal Cert.Pre_finite_inputs.S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  exact ⟨real_of_all a0 _ _ _ e0, real_of_all a1 _ _ _ e1, real_of_all a2 _ _ _ e2, real_of_all a3 _ _ _ e3,
    real_of_all a4 _ _ _ e4, real_of_all a5 _ _ _ e5⟩

/-- The same over a launch memory of which the precondition holds, on each device. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) :=
  real_of_fn _ _ _ _ _ _ (hpre c)

end Cert.Retrieval

end
-- ==== Proof.lean ====
/-
  The retrieval logits of 512 molecules against 50000 templates: `β * ∑ a, q b a * k t a`, with queries
  `q b a = (∑ f, x b f * wq a f) + cq a` and keys `k t a = (∑ f, y t f * wk a f) + ck a`.

  The kernel never forms the keys. A first region, run once, forms the queries, projects them back to fingerprint space
  through the key weights, `p b f = ∑ a, q b a * wk a f`, and pairs them with the key bias, `o b = ∑ a, q b a * ck a`;
  a second region, over 25 blocks of 2048 templates, forms `β * ((∑ f, p b f * y t f) + o b)`. Over the reals the two
  are one number: distribute `q b a` over the key's two summands and exchange the sums over `a` and `f`. Over the
  extended reals that needs every entry real, which is what the precondition says.

  The last block of templates overhangs the array by 1200 rows. What the second region computes from the rows below the
  array's end lands in result columns past the array's end, which the write-back drops: a logit's column reads its own
  template row only.

  The pieces: the word-level program's frame (its own module; nothing is said there of what it computes); the idealized
  program's run over its three segments with the logits buffer read back as a function of the six launch arrays; the
  reference's run read back as the paired logits; and the law joining the two.
-/
import proofs.«147248_j70643622085021_2_alg».proof.Defs
import proofs.«147248_j70643622085021_2_alg».proof.Proof.Gen.Kernel
import proofs.«147248_j70643622085021_2_alg».proof.Proof.Gen.KernelIdeal
import proofs.«147248_j70643622085021_2_alg».proof.Proof.Gen.ReferenceIdeal
import proofs.«147248_j70643622085021_2_alg».proof.Proof.Gen.ReferenceIdeal.Read
import proofs.«147248_j70643622085021_2_alg».proof.Proof.Gen.Pre_finite_inputs
import proofs.«147248_j70643622085021_2_alg».proof.Proof.KernelFrame
import proofs.«147248_j70643622085021_2_alg».proof.Proof.Args
import proofs.«147248_j70643622085021_2_alg».proof.Proof.Region0
import proofs.«147248_j70643622085021_2_alg».proof.Proof.Region1
import proofs.«147248_j70643622085021_2_alg».proof.Proof.KernelValue
import proofs.«147248_j70643622085021_2_alg».proof.Proof.RefValue
import proofs.«147248_j70643622085021_2_alg».proof.Proof.Reassoc
import proofs.«147248_j70643622085021_2_alg».proof.Proof.Finite

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

open Cert.KernelIdeal Cert.KernelIdeal.Hand in
/-- So does the idealized program: its run with every argument read back to the launch memory. -/
theorem frame_ki : Cert.frame_KernelIdeal := fun m ρ _ =>
  (θ_run Cert.KernelIdeal.defs _ _).mono (fun _ h c => (h c).2)
    (run_named m ρ (body_obligation0 (V1 m ρ)) (body_obligation1 (V2 m ρ)))

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Hand in
/-- Both idealized programs end with the projected-logits array of the launch arrays in their result: the kernel by its
    run, the reference because its paired logits are that array when every entry is real. -/
theorem algebraic : Cert.algebraic_KernelIdeal_ReferenceIdeal := by
  intro m ρ m' ρ' hpre hagree
  refine ⟨fun c => Cert.Retrieval.projectedArr (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)), ?_, ?_⟩
  · exact (θ_run Cert.KernelIdeal.defs _ _).mono (fun _ h c => ⟨(h c).1.trans (kernel_value m ρ c), (h c).2⟩)
      (run_named m ρ (body_obligation0 (V1 m ρ)) (body_obligation1 (V2 m ρ)))
  · refine (θ_run Cert.ReferenceIdeal.defs _ _).mono (fun _ h c => ⟨(h c).1.trans ?_, (h c).2⟩)
      (Cert.ReferenceIdeal.Value.run (F := Ideal) m' ρ')
    have hr := Cert.Retrieval.real_of_pre m hpre c
    rw [(hagree c).1, (hagree c).2.1, (hagree c).2.2.1, (hagree c).2.2.2.1, (hagree c).2.2.2.2.1, (hagree c).2.2.2.2.2]
    refine (Cert.ReferenceIdeal.RefValue.result_eq _ _ _ _ _ _).trans ?_
    exact (Cert.Retrieval.projectedArr_eq_pairedArr _ _ _ _ _ _ hr.1 hr.2.1 hr.2.2.1 hr.2.2.2.1 hr.2.2.2.2.1 hr.2.2.2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
